-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v32) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S128x32x8192 : Shape := ⟨3, ![128, 32, 8192]⟩
abbrev S128x8192 : Shape := ⟨2, ![128, 8192]⟩
abbrev S128x32 : Shape := ⟨2, ![128, 32]⟩
abbrev S_ : Shape := ⟨0, ![]⟩

class Facts : Prop where
  bcast_S_S128x32x8192 : S_.BroadcastsInDim S128x32x8192 (![] : Fin 0 → Fin S128x32x8192.rank)
  reducesTo_S128x32x8192_S_d0_1_2 : S128x32x8192.ReducesTo [0, 1, 2] S_
  h_S_ : 0 < S_.numel

variable [Facts]

def fn {F : FTy → Type} [FloatOps F] (main_arg0 : FVec F S128x32x8192 .f32) (main_arg1 : IVec S128x8192 32) (main_arg2 : IVec S128x32 32) : IVec S_ 1 :=
  let main_v0 : FVec F S128x32x8192 .f32 := Host.absf main_arg0
  let main_cst : FVec F S_ .f32 := constant S_ .f32 0x7F800000#32
  let main_v1 : FVec F S128x32x8192 .f32 := broadcastInDim S128x32x8192 ![] bcast_S_S128x32x8192 main_cst
  let main_v2 : IVec S128x32x8192 1 := cmpf .olt main_v0 main_v1
  let main_c : IVec S_ 1 := constantI S_ 1 1#1
  let main_v3 : IVec S_ 1 := (fun x v => Host.reduce IntOp.andi x v reducesTo_S128x32x8192_S_d0_1_2 h_S_) main_v2 main_c
  let main_cst_0 : FVec F S_ .f32 := constant S_ .f32 0xBF800000#32
  let main_v4 : FVec F S128x32x8192 .f32 := broadcastInDim S128x32x8192 ![] bcast_S_S128x32x8192 main_cst_0
  let main_v5 : IVec S128x32x8192 1 := cmpf .oge main_arg0 main_v4
  let main_c_1 : IVec S_ 1 := constantI S_ 1 1#1
  let main_v6 : IVec S_ 1 := (fun x v => Host.reduce IntOp.andi x v reducesTo_S128x32x8192_S_d0_1_2 h_S_) main_v5 main_c_1
  let main_v7 : IVec S_ 1 := andi main_v3 main_v6
  let main_cst_2 : FVec F S_ .f32 := constant S_ .f32 0x3F800000#32
  let main_v8 : FVec F S128x32x8192 .f32 := broadcastInDim S128x32x8192 ![] bcast_S_S128x32x8192 main_cst_2
  let main_v9 : IVec S128x32x8192 1 := cmpf .ole main_arg0 main_v8
  let main_c_3 : IVec S_ 1 := constantI S_ 1 1#1
  let main_v10 : IVec S_ 1 := (fun x v => Host.reduce IntOp.andi x v reducesTo_S128x32x8192_S_d0_1_2 h_S_) main_v9 main_c_3
  let main_v11 : IVec S_ 1 := andi main_v7 main_v10
  main_v11
-- ==== Kernel.lean ====
abbrev S128x32x8192 : Shape := ⟨3, ![128, 32, 8192]⟩
abbrev S128x8192 : Shape := ⟨2, ![128, 8192]⟩
abbrev S128x32 : Shape := ⟨2, ![128, 32]⟩
abbrev S128x32x30 : Shape := ⟨3, ![128, 32, 30]⟩
abbrev S16x32x2048 : Shape := ⟨3, ![16, 32, 2048]⟩
abbrev S16x2048 : Shape := ⟨2, ![16, 2048]⟩
abbrev S16x32 : Shape := ⟨2, ![16, 32]⟩
abbrev S16x32x30 : Shape := ⟨3, ![16, 32, 30]⟩
abbrev S16x1x2048 : Shape := ⟨3, ![16, 1, 2048]⟩
abbrev S16x32x1 : Shape := ⟨3, ![16, 32, 1]⟩

abbrev nBuf : Space → Nat
  | .hbm => 4
  | .vmem => 9
  | .smem => 0
  | _ => 0

abbrev bufTy : (tb : Table) → Fin (tcTables nBuf tb) → BufTy
  | .hbm, ⟨0, _⟩ => ⟨S128x32x8192, .f32⟩
  | .hbm, ⟨1, _⟩ => ⟨S128x8192, .i32⟩
  | .hbm, ⟨2, _⟩ => ⟨S128x32, .i32⟩
  | .hbm, ⟨3, _⟩ => ⟨S128x32x30, .f32⟩
  | .local _ .vmem, ⟨0, _⟩ => ⟨S16x32x2048, .f32⟩
  | .local _ .vmem, ⟨1, _⟩ => ⟨S16x32x2048, .f32⟩
  | .local _ .vmem, ⟨2, _⟩ => ⟨S16x2048, .i32⟩
  | .local _ .vmem, ⟨3, _⟩ => ⟨S16x2048, .i32⟩
  | .local _ .vmem, ⟨4, _⟩ => ⟨S16x32, .i32⟩
  | .local _ .vmem, ⟨5, _⟩ => ⟨S16x32, .i32⟩
  | .local _ .vmem, ⟨6, _⟩ => ⟨S16x32x30, .f32⟩
  | .local _ .vmem, ⟨7, _⟩ => ⟨S16x32x30, .f32⟩
  | .local _ .vmem, ⟨8, _⟩ => ⟨S16x32x30, .f32⟩
  | _, _ => ⟨S128x32x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 4], ![false, false]⟩

def k0_cond2 (i : grid0.Coords) : BitVec 1 :=
  let arg1 : BitVec 32 := BitVec.ofNat 32 (i 1).val
  let c3_i32_48 : BitVec 32 := 3#32
  let v242 : BitVec 1 := Scalar.cmpi .eq arg1 c3_i32_48
  let v243 : BitVec 32 := Scalar.extui v242
  let c0_i32_49 : BitVec 32 := 0#32
  let v244 : BitVec 1 := Scalar.cmpi .ne v243 c0_i32_49
  v244

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S16x32x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S16x2048 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S16x32 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S16x32x30 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  inb_S16x32x30_S16x32x30_0_0_0 : ∀ a, (![0, 0, 0] : Fin 3 → Nat) a + S16x32x30.size a ≤ S16x32x30.size a
  h_S16x32x30 : 0 < S16x32x30.numel
  shapeCasts_S16x32x30_S16x32x30 : S16x32x30.ShapeCasts S16x32x30
  inb_S16x32x2048_S16x32x2048_0_0_0 : ∀ a, (![0, 0, 0] : Fin 3 → Nat) a + S16x32x2048.size a ≤ S16x32x2048.size a
  h_S16x32x2048 : 0 < S16x32x2048.numel
  inb_S16x2048_S16x2048_0_0 : ∀ a, (![0, 0] : Fin 2 → Nat) a + S16x2048.size a ≤ S16x2048.size a
  h_S16x2048 : 0 < S16x2048.numel
  inb_S16x32_S16x32_0_0 : ∀ a, (![0, 0] : Fin 2 → Nat) a + S16x32.size a ≤ S16x32.size a
  h_S16x32 : 0 < S16x32.numel
  natLt_1_32 : 1 < 32
  shapeCasts_S16x2048_S16x1x2048 : S16x2048.ShapeCasts S16x1x2048
  shapeCasts_S16x32_S16x32x1 : S16x32.ShapeCasts S16x32x1
  broadcasts_S16x1x2048_S16x32x2048 : S16x1x2048.Broadcasts S16x32x2048
  broadcasts_S16x32x1_S16x32x2048 : S16x32x1.Broadcasts S16x32x2048
  reduces_S16x32x2048_S16x32 : S16x32x2048.Reduces [2] S16x32
  concatenates_S16x32x1_S16x32x1_S16x32x1_S16x32x1_S16x32x1_S16x32x1_S16x32x1_S16x32x1_S16x32x1_S16x32x1_S16x32x1_S16x32x1_S16x32x1_S16x32x1_S16x32x1_S16x32x1_S16x32x1_S16x32x1_S16x32x1_S16x32x1_S16x32x1_S16x32x1_S16x32x1_S16x32x1_S16x32x1_S16x32x1_S16x32x1_S16x32x1_S16x32x1_S16x32x1_S16x32x30_d2 : Shape.Concatenates [S16x32x1, S16x32x1, S16x32x1, S16x32x1, S16x32x1, S16x32x1, S16x32x1, S16x32x1, S16x32x1, S16x32x1, S16x32x1, S16x32x1, S16x32x1, S16x32x1, S16x32x1, S16x32x1, S16x32x1, S16x32x1, S16x32x1, S16x32x1, S16x32x1, S16x32x1, S16x32x1, S16x32x1, S16x32x1, S16x32x1, S16x32x1, S16x32x1, S16x32x1, S16x32x1] S16x32x30 2
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S16x32x2048.size a ≤ S128x32x8192.size a
  hwx0_0 : ∀ i : grid0.Coords, EltTy.bits .f32 = 32 ∨ (Rect.block (s := S128x32x8192) S16x32x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S16x2048.size a ≤ S128x8192.size a
  hwx0_1 : ∀ i : grid0.Coords, EltTy.bits .i32 = 32 ∨ (Rect.block (s := S128x8192) S16x2048.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S16x32.size a ≤ S128x32.size a
  hwx0_2 : ∀ i : grid0.Coords, EltTy.bits .i32 = 32 ∨ (Rect.block (s := S128x32) S16x32.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S16x32x30.size a ≤ S128x32x30.size a
  hwx0_3 : ∀ i : grid0.Coords, EltTy.bits .f32 = 32 ∨ (Rect.block (s := S128x32x30) S16x32x30.size (cc0_transform_3 i) (hinb0_3 i)).WholeWords (EltTy.packing .f32)

variable [Facts₀]

abbrev win0_0 : Pipeline.Window sig grid0 :=
  Pipeline.Window.ofSpec (Memref.whole main_arg0) S16x32x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S16x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S16x32.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S16x32x30.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S128x32x8192 : Shape := ⟨3, ![128, 32, 8192]⟩
abbrev S128x8192 : Shape := ⟨2, ![128, 8192]⟩
abbrev S128x32 : Shape := ⟨2, ![128, 32]⟩
abbrev S_ : Shape := ⟨0, ![]⟩
abbrev S128x1x8192 : Shape := ⟨3, ![128, 1, 8192]⟩
abbrev S128x32x1 : Shape := ⟨3, ![128, 32, 1]⟩
abbrev S4096 : Shape := ⟨1, ![4096]⟩
abbrev S4096x1 : Shape := ⟨2, ![4096, 1]⟩
abbrev S4096x8192 : Shape := ⟨2, ![4096, 8192]⟩
abbrev S33554432 : Shape := ⟨1, ![33554432]⟩
abbrev S122880 : Shape := ⟨1, ![122880]⟩
abbrev S33554432x1 : Shape := ⟨2, ![33554432, 1]⟩
abbrev S128x32x30 : Shape := ⟨3, ![128, 32, 30]⟩

abbrev nBuf : Space → Nat
  | .hbm => 44
  | .vmem => 0
  | .smem => 0
  | _ => 0

abbrev bufTy : (tb : Table) → Fin (tcTables nBuf tb) → BufTy
  | .hbm, ⟨0, _⟩ => ⟨S128x32x8192, .f32⟩
  | .hbm, ⟨1, _⟩ => ⟨S128x8192, .i32⟩
  | .hbm, ⟨2, _⟩ => ⟨S128x32, .i32⟩
  | .hbm, ⟨3, _⟩ => ⟨S_, .f32⟩
  | .hbm, ⟨4, _⟩ => ⟨S128x32x8192, .f32⟩
  | .hbm, ⟨5, _⟩ => ⟨S128x32x8192, .f32⟩
  | .hbm, ⟨6, _⟩ => ⟨S_, .f32⟩
  | .hbm, ⟨7, _⟩ => ⟨S128x32x8192, .f32⟩
  | .hbm, ⟨8, _⟩ => ⟨S128x32x8192, .f32⟩
  | .hbm, ⟨9, _⟩ => ⟨S_, .f32⟩
  | .hbm, ⟨10, _⟩ => ⟨S128x32x8192, .f32⟩
  | .hbm, ⟨11, _⟩ => ⟨S128x32x8192, .f32⟩
  | .hbm, ⟨12, _⟩ => ⟨S128x32x8192, .i32⟩
  | .hbm, ⟨13, _⟩ => ⟨S128x1x8192, .i32⟩
  | .hbm, ⟨14, _⟩ => ⟨S_, .i32⟩
  | .hbm, ⟨15, _⟩ => ⟨S128x1x8192, .i32⟩
  | .hbm, ⟨16, _⟩ => ⟨S128x1x8192, .i1⟩
  | .hbm, ⟨17, _⟩ => ⟨S128x32x1, .i32⟩
  | .hbm, ⟨18, _⟩ => ⟨S_, .i32⟩
  | .hbm, ⟨19, _⟩ => ⟨S128x32x1, .i32⟩
  | .hbm, ⟨20, _⟩ => ⟨S128x32x1, .i1⟩
  | .hbm, ⟨21, _⟩ => ⟨S128x32x8192, .i1⟩
  | .hbm, ⟨22, _⟩ => ⟨S128x32x8192, .i1⟩
  | .hbm, ⟨23, _⟩ => ⟨S128x32x8192, .i1⟩
  | .hbm, ⟨24, _⟩ => ⟨S128x32x8192, .f32⟩
  | .hbm, ⟨25, _⟩ => ⟨S4096, .i32⟩
  | .hbm, ⟨26, _⟩ => ⟨S4096x1, .i32⟩
  | .hbm, ⟨27, _⟩ => ⟨S_, .i32⟩
  | .hbm, ⟨28, _⟩ => ⟨S4096x1, .i32⟩
  | .hbm, ⟨29, _⟩ => ⟨S4096x1, .i32⟩
  | .hbm, ⟨30, _⟩ => ⟨S4096x8192, .i32⟩
  | .hbm, ⟨31, _⟩ => ⟨S4096x8192, .i32⟩
  | .hbm, ⟨32, _⟩ => ⟨S4096x8192, .i32⟩
  | .hbm, ⟨33, _⟩ => ⟨S33554432, .i32⟩
  | .hbm, ⟨34, _⟩ => ⟨S33554432, .f32⟩
  | .hbm, ⟨35, _⟩ => ⟨S_, .f32⟩
  | .hbm, ⟨36, _⟩ => ⟨S122880, .f32⟩
  | .hbm, ⟨37, _⟩ => ⟨S33554432x1, .i32⟩
  | .hbm, ⟨38, _⟩ => ⟨S122880, .f32⟩
  | .hbm, ⟨39, _⟩ => ⟨S128x32x30, .f32⟩
  | .hbm, ⟨40, _⟩ => ⟨S_, .f32⟩
  | .hbm, ⟨41, _⟩ => ⟨S128x32x30, .f32⟩
  | .hbm, ⟨42, _⟩ => ⟨S128x32x30, .f32⟩
  | .hbm, ⟨43, _⟩ => ⟨S128x32x30, .f32⟩
  | _, _ => ⟨S128x32x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_cst_1 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_c : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_c_2 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_c_3 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_cst_4 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_cst_5 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩

abbrev nD : Nat := 1
abbrev τ : Topo := Topo.v7x

variable {F : FTy → Type} [FloatOps F]

class Facts₀ : Prop where
  bcast_S_S128x32x8192 : S_.BroadcastsInDim S128x32x8192 (![] : Fin 0 → Fin S128x32x8192.rank)
  bcast_S128x8192_S128x1x8192_0_2 : S128x8192.BroadcastsInDim S128x1x8192 (![0, 2] : Fin 2 → Fin S128x1x8192.rank)
  bcast_S_S128x1x8192 : S_.BroadcastsInDim S128x1x8192 (![] : Fin 0 → Fin S128x1x8192.rank)
  bcast_S128x32_S128x32x1_0_1 : S128x32.BroadcastsInDim S128x32x1 (![0, 1] : Fin 2 → Fin S128x32x1.rank)
  bcast_S_S128x32x1 : S_.BroadcastsInDim S128x32x1 (![] : Fin 0 → Fin S128x32x1.rank)
  bcast_S128x1x8192_S128x32x8192_0_1_2 : S128x1x8192.BroadcastsInDim S128x32x8192 (![0, 1, 2] : Fin 3 → Fin S128x32x8192.rank)
  bcast_S128x32x1_S128x32x8192_0_1_2 : S128x32x1.BroadcastsInDim S128x32x8192 (![0, 1, 2] : Fin 3 → Fin S128x32x8192.rank)
  bcast_S4096_S4096x1_0 : S4096.BroadcastsInDim S4096x1 (![0] : Fin 1 → Fin S4096x1.rank)
  bcast_S_S4096x1 : S_.BroadcastsInDim S4096x1 (![] : Fin 0 → Fin S4096x1.rank)
  shapeCasts_S128x32x8192_S4096x8192 : S128x32x8192.ShapeCasts S4096x8192
  bcast_S4096x1_S4096x8192_0_1 : S4096x1.BroadcastsInDim S4096x8192 (![0, 1] : Fin 2 → Fin S4096x8192.rank)
  shapeCasts_S4096x8192_S33554432 : S4096x8192.ShapeCasts S33554432
  shapeCasts_S128x32x8192_S33554432 : S128x32x8192.ShapeCasts S33554432
  bcast_S_S122880 : S_.BroadcastsInDim S122880 (![] : Fin 0 → Fin S122880.rank)
  bcast_S33554432_S33554432x1_0 : S33554432.BroadcastsInDim S33554432x1 (![0] : Fin 1 → Fin S33554432x1.rank)
  shapeCasts_S122880_S128x32x30 : S122880.ShapeCasts S128x32x30
  bcast_S_S128x32x30 : S_.BroadcastsInDim S128x32x30 (![] : Fin 0 → Fin S128x32x30.rank)
  scatter_S122880_S33554432x1_S33554432_n_0_0_1_wf : ScatterDims.WF S122880 S33554432x1 S33554432 [] [0] [0] 1

variable [Facts₀]

def scatter_S122880_S33554432x1_S33554432_n_0_0_1 : ScatterDims S122880 S33554432x1 S33554432 where
  updateWindowDims := []
  insertedWindowDims := [0]
  scatterDimsToOperandDims := [0]
  indexVectorDim := 1
  wf := scatter_S122880_S33554432x1_S33554432_n_0_0_1_wf

class Facts : Prop extends Facts₀ where

variable [Facts]
-- ==== Proof.HistPre.lean ====
/-
  What the precondition says of the similarity array: every entry lies between -1 and 1.

  The precondition is the conjunction of three "for all entries" tests — |x| < ∞, x ≥ -1, x ≤ 1 — each a reduction by
  "and" of a comparison bit from the constant 1.  The conjunction is 1, so each reduction is 1, so each comparison
  bit is 1 at every entry; a comparison bit on the extended reals is 1 exactly where the comparison holds.
-/
import proofs.«101253_j5222680232145_1_alg».proof.Pre_finite_inputs
import Idealize.ShloMosaic.Lib.ReduceAll
import Idealize.ShloMosaic.Lib.ValueIdx
import Idealize.ShloMosaic.Lib.Pipeline.Value
import Idealize.ShloMosaic.PureOps.Ideal

noncomputable section

namespace Cert.Hist

open Idealize.ShloMosaic Cert.Pre_finite_inputs

/-- The lower bound of the range test is the real -1. -/
theorem ofBits_negOne : Ideal.ofBits .f32 0xBF800000#32 = (-1 : EReal) := by
  simp [Ideal.ofBits, Ideal.ieee, -EReal.coe_mul]; norm_num

/-- The upper bound of the range test is the real 1. -/
theorem ofBits_one : Ideal.ofBits .f32 0x3F800000#32 = (1 : EReal) := by
  simp [Ideal.ofBits, Ideal.ieee, -EReal.coe_mul]; norm_num

instance : Subsingleton S_.Idx := ⟨fun a b => funext fun d => d.elim0⟩

variable [Cert.Pre_finite_inputs.Facts]

/-- Under the precondition every similarity lies in [-1, 1]. -/
theorem sim_range (x0 : FVec Ideal S128x32x8192 .f32) (x1 : IVec S128x8192 32) (x2 : IVec S128x32 32)
    (h : Cert.Pre_finite_inputs.fn (F := Ideal) x0 x1 x2 = fun _ => 1#1) (i : S128x32x8192.Idx) :
    (-1 : EReal) ≤ x0 i ∧ x0 i ≤ 1 := by
  have h0 := congrFun h ValueIdx.ix0
  dsimp only [Cert.Pre_finite_inputs.fn] at h0
  obtain ⟨h12, h3⟩ := IntOp.andi_eq_one.mp h0
  obtain ⟨_, h2⟩ := IntOp.andi_eq_one.mp h12
  have e2 := Host.reduce_andi_all _ _ _ _ _ h2 i
  have e3 := Host.reduce_andi_all _ _ _ _ _ h3 i
  rw [ValueIdx.cmpf_apply] at e2 e3
  have b2 : broadcastInDim S128x32x8192 ![] Facts.bcast_S_S128x32x8192 (constant (F := Ideal) S_ .f32 0xBF800000#32) i
      = (-1 : EReal) := by
    rw [broadcastInDim_apply _ _ _ i ValueIdx.ix0 (fun a => a.elim0), ValueIdx.constant_apply, ofBits_negOne]
  have b3 : broadcastInDim S128x32x8192 ![] Facts.bcast_S_S128x32x8192 (constant (F := Ideal) S_ .f32 0x3F800000#32) i
      = (1 : EReal) := by
    rw [broadcastInDim_apply _ _ _ i ValueIdx.ix0 (fun a => a.elim0), ValueIdx.constant_apply, ofBits_one]
  rw [b2] at e2
  rw [b3] at e3
  have l2 : Ideal.cmp .oge (x0 i) (-1) = 1#1 := e2
  have l3 : Ideal.cmp .ole (x0 i) 1 = 1#1 := e3
  simp only [Ideal.cmp] at l2 l3
  refine ⟨?_, ?_⟩
  · by_contra hc
    rw [decide_eq_false hc] at l2
    exact absurd l2 (by decide)
  · by_contra hc
    rw [decide_eq_false hc] at l3
    exact absurd l3 (by decide)

end Cert.Hist

end
-- ==== Proof.LibVecScatter.lean ====
/-
  An accumulating scatter of single entries into a vector, read at one entry.

  The operand is a vector of length n, the updates a vector of length e, and the scatter indices an e×1 column of
  integers: update entry r is added into operand entry t(r), where t(r) is entry (r, 0) of the indices read as a
  SIGNED integer and NOT clamped; an update whose target is outside [0, n) is dropped. On the extended reals the
  accumulated result at entry s is therefore the operand's entry plus the sum, over the update entries r whose target
  is s, of update entry r — written below as a sum over all r of an `if`. Stated for the dimension record
  `vecDims n e` (no update window axis, inserted window axis [0], scatter axis to operand axis [0], index vector
  axis 1), for any extents and any integer width; a printed record with those four lists is this record (they differ
  in a proof field).
-/
import Idealize.ShloMosaic.Lib.ValueIdx
import Idealize.ShloMosaic.PureOps.Ideal.Laws

noncomputable section

open scoped BigOperators

namespace Cert.VecScatter

open Idealize.ShloMosaic Idealize.ShloMosaic.ValueIdx

/-- A rank-1 index set is its one coordinate range … -/
def idxEquiv1 {n : Nat} : (⟨1, ![n]⟩ : Shape).Idx ≃ Fin n where
  toFun i := i 0
  invFun a := ix1 a
  left_inv i := (eq_ix1 i).symm
  right_inv _ := rfl

/-- … so a sum over it is the sum over the coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-- Scatter the entries of a vector of length e into a vector of length n at e positions laid as a column e×1. -/
def vecDims (n e : Nat) (wf : ScatterDims.WF ⟨1, ![n]⟩ ⟨2, ![e, 1]⟩ ⟨1, ![e]⟩ [] [0] [0] 1) :
    ScatterDims ⟨1, ![n]⟩ ⟨2, ![e, 1]⟩ ⟨1, ![e]⟩ where
  updateWindowDims := []
  insertedWindowDims := [0]
  scatterDimsToOperandDims := [0]
  indexVectorDim := 1
  wf := wf

variable {n e w : ℕ} (wf : ScatterDims.WF ⟨1, ![n]⟩ ⟨2, ![e, 1]⟩ ⟨1, ![e]⟩ [] [0] [0] 1)

/-- On the operand's one axis the window of update entry r starts at the r-th scatter index, read signed. -/
theorem start_zero (r : Fin e) (idx : IVec ⟨2, ![e, 1]⟩ w) :
    (vecDims n e wf).start (ix1 r) idx 0 = (idx (ix2 r 0)).toInt := by
  unfold ScatterDims.start
  rw [dif_pos (show (0 : Fin 1) ∈ (vecDims n e wf).scatterDimsToOperandDims from List.mem_singleton.mpr rfl)]
  refine congrArg (fun k => (idx k).toInt) ?_
  funext b
  match b with
  | ⟨0, _⟩ => rfl
  | ⟨1, _⟩ => rfl

/-- The operand's one axis is an inserted axis: the window has no extent along it. -/
theorem window_zero (r : Fin e) : (vecDims n e wf).window (ix1 r) 0 = 0 := by
  unfold ScatterDims.window
  rw [dif_neg (show ¬ (0 : Fin 1) ∈ (vecDims n e wf).sKept from by
    show ¬ (0 : Fin 1) ∈ (List.finRange 1).filter (fun a => a ∉ [(0 : Fin 1)])
    decide)]

/-- Update entry r lands on operand entry s exactly when the r-th scatter index, read signed, is s. -/
theorem resultIdx?_eq_some_iff (r : Fin e) (idx : IVec ⟨2, ![e, 1]⟩ w) (s : Fin n) :
    (vecDims n e wf).resultIdx? (ix1 r) idx = some (ix1 s) ↔ (idx (ix2 r 0)).toInt = (s.val : ℤ) := by
  have hs0 := start_zero wf r idx
  have hw0 := window_zero (n := n) wf r
  have hsn : s.val < n := s.isLt
  unfold ScatterDims.resultIdx?
  constructor
  · intro h
    split at h
    · have h' := Option.some.inj h
      have h0 : ((vecDims n e wf).start (ix1 r) idx 0 + ((vecDims n e wf).window (ix1 r) 0 : ℕ)).toNat = s.val :=
        congrArg (fun f : (⟨1, ![n]⟩ : Shape).Idx => (f 0).val) h'
      rename_i hb
      have hb0 := hb 0
      rw [hs0, hw0] at h0 hb0
      omega
    · exact absurd h (by simp)
  · intro ht
    have hall : ∀ a, 0 ≤ (vecDims n e wf).start (ix1 r) idx a + ((vecDims n e wf).window (ix1 r) a : ℕ)
        ∧ (vecDims n e wf).start (ix1 r) idx a + ((vecDims n e wf).window (ix1 r) a : ℕ) < (⟨1, ![n]⟩ : Shape).size a := by
      intro a
      match a with
      | ⟨0, _⟩ =>
        show 0 ≤ (vecDims n e wf).start (ix1 r) idx 0 + ((vecDims n e wf).window (ix1 r) 0 : ℕ)
          ∧ (vecDims n e wf).start (ix1 r) idx 0 + ((vecDims n e wf).window (ix1 r) 0 : ℕ) < (n : ℤ)
        rw [hs0, hw0, ht]; omega
    rw [dif_pos hall]
    refine congrArg some (funext fun a => Fin.ext ?_)
    match a with
    | ⟨0, _⟩ =>
      show ((vecDims n e wf).start (ix1 r) idx 0 + ((vecDims n e wf).window (ix1 r) 0 : ℕ)).toNat = s.val
      rw [hs0, hw0, ht]; omega

/-- The accumulating entry scatter at entry s, on the extended reals: the operand's entry plus the sum over the
    update entries whose signed target is s. -/
theorem scatterAdd_apply {φ : FTy} (x : FVec Ideal ⟨1, ![n]⟩ φ) (idx : IVec ⟨2, ![e, 1]⟩ w)
    (upd : FVec Ideal ⟨1, ![e]⟩ φ) (s : Fin n) :
    Host.scatterAdd (F := Ideal) (vecDims n e wf) x idx upd (ix1 s)
      = x (ix1 s) + ∑ r : Fin e, if (idx (ix2 r 0)).toInt = (s.val : ℤ) then upd (ix1 r) else 0 := by
  show x (ix1 s) + ∑ j ∈ Finset.univ.filter (fun j => (vecDims n e wf).resultIdx? j idx = some (ix1 s)), upd j = _
  congr 1
  rw [Finset.sum_filter, sum_idx1]
  refine Finset.sum_congr rfl fun r _ => ?_
  simp only [resultIdx?_eq_some_iff]

end Cert.VecScatter

end
-- ==== Proof.RefScatter.lean ====
/-
  The reference's scatter-add, read at one segment.

  The scatter adds update element e (of 33554432) into segment t(e) of a zero vector of 122880 segments, where t(e)
  is the e-th index word read as a signed integer; a word outside [0, 122880) is dropped.  At segment s the result
  is therefore the initial entry plus the sum over all e of the update at e where t(e) = s.
-/
import proofs.«101253_j5222680232145_1_alg».proof.Proof.Gen.ReferenceIdeal.Read
import proofs.«101253_j5222680232145_1_alg».proof.Proof.LibVecScatter

noncomputable section

open scoped BigOperators

namespace Cert.Hist.Ref

open Cert.ReferenceIdeal Cert.ReferenceIdeal.Gen Cert.ReferenceIdeal.Read Idealize.ShloMosaic Idealize.ShloMosaic.ValueIdx

/-- Segment s of the scattered vector: the initial entry plus the updates whose signed index word is s. -/
theorem scatter_read (x0 : (⟨S128x32x8192, .f32⟩ : BufTy).Contents (Elt Ideal))
    (x1 : (⟨S128x8192, .i32⟩ : BufTy).Contents (Elt Ideal)) (x2 : (⟨S128x32, .i32⟩ : BufTy).Contents (Elt Ideal))
    (s : Fin 122880) :
    val_main_v28 (F := Ideal) x0 x1 x2 (ix1 s)
      = val_main_v26 (F := Ideal) (ix1 s)
        + ∑ e : Fin 33554432, if (val_main_v27 (F := Ideal) x0 (ix2 e 0)).toInt = (s.val : ℤ)
            then val_main_v25 (F := Ideal) x1 x2 (ix1 e) else 0 :=
  Cert.VecScatter.scatterAdd_apply scatter_S122880_S33554432x1_S33554432_n_0_0_1_wf
    (val_main_v26 (F := Ideal)) (val_main_v27 (F := Ideal) x0) (val_main_v25 (F := Ideal) x1 x2) s

end Cert.Hist.Ref

end
-- ==== Proof.HistSpec.lean ====
/-
  The weighted histogram both programs compute, as one function of the argument arrays.

  For a row (b, q) of the similarity array and a bin k < 30 the count is the sum, over the 8192 document positions d,
  of the weight of (b, q, d) where the similarity's bin is k.  The bin of a similarity x is ((x + c) / 2) · 29
  rounded toward zero (c the float just above 1), read as a 32-bit word; the weight is 1 where neither the document
  token at (b, d) nor the query token at (b, q) is the padding token 0, else 0.  The result is log (count + ε).
-/
import Idealize.ShloMosaic.PureOps.Ideal
import Idealize.ShloMosaic.Lib.ValueIdx

noncomputable section

open scoped BigOperators

namespace Cert.Hist

open Idealize.ShloMosaic Idealize.ShloMosaic.ValueIdx

/-- The bin of a similarity value, as a 32-bit word: ((x + c) / 2) · 29 rounded toward zero. -/
def bin (x : EReal) : BitVec 32 :=
  Ideal.fptosi 32
    (Ideal.div (x + Ideal.ofBits .f32 0x3F800008#32) (Ideal.ofBits .f32 0x40000000#32) * Ideal.ofBits .f32 0x41E80000#32)

/-- The weight of a (document token, query token) pair: 1 where neither is the padding token 0. -/
def weight (dt qt : BitVec 32) : EReal := if dt ≠ 0#32 ∧ qt ≠ 0#32 then 1 else 0

/-- One term of a count: the weight where the similarity falls in bin `k`, else 0. -/
def term (x : EReal) (dt qt : BitVec 32) (k : BitVec 32) : EReal := if bin x = k then weight dt qt else 0

/-- The weighted count of row (b, q) in bin k over all 8192 document positions. -/
def count (sim : (⟨3, ![128, 32, 8192]⟩ : Shape).Idx → EReal) (dt : (⟨2, ![128, 8192]⟩ : Shape).Idx → BitVec 32)
    (qt : (⟨2, ![128, 32]⟩ : Shape).Idx → BitVec 32) (b : Fin 128) (q : Fin 32) (k : Fin 30) : EReal :=
  ∑ d : Fin 8192, term (sim (ix3 b q d)) (dt (ix2 b d)) (qt (ix2 b q)) (BitVec.ofNat 32 k.val)

/-- The result array: log (count + ε) at every (b, q, k). -/
def result (sim : (⟨3, ![128, 32, 8192]⟩ : Shape).Idx → EReal) (dt : (⟨2, ![128, 8192]⟩ : Shape).Idx → BitVec 32)
    (qt : (⟨2, ![128, 32]⟩ : Shape).Idx → BitVec 32) : (⟨3, ![128, 32, 30]⟩ : Shape).Idx → EReal :=
  fun i => Ideal.log (count sim dt qt (i 0) (i 1) (i 2) + Ideal.ofBits .f32 0x3727C5AC#32)

theorem result_apply (sim : (⟨3, ![128, 32, 8192]⟩ : Shape).Idx → EReal) (dt : (⟨2, ![128, 8192]⟩ : Shape).Idx → BitVec 32)
    (qt : (⟨2, ![128, 32]⟩ : Shape).Idx → BitVec 32) (b : Fin 128) (q : Fin 32) (k : Fin 30) :
    result sim dt qt (ix3 b q k) = Ideal.log (count sim dt qt b q k + Ideal.ofBits .f32 0x3727C5AC#32) := rfl

end Cert.Hist

end
-- ==== Proof.RefElems.lean ====
/-
  The reference's scatter operands, read at one element.

  Element e of the 33554432 flattened positions is (row, d) with row = e / 8192 (row = 32·b + q) and d = e % 8192.
  Its index word is the bin of the similarity at (b, q, d) plus 30 times the row, in 32-bit arithmetic; its update
  is the weight of the document token at (b, d) and the query token at (b, q).
-/
import proofs.«101253_j5222680232145_1_alg».proof.Proof.Gen.ReferenceIdeal.Read
import proofs.«101253_j5222680232145_1_alg».proof.Proof.HistSpec

noncomputable section

namespace Cert.Hist.Ref

open Cert.ReferenceIdeal Cert.ReferenceIdeal.Gen Cert.ReferenceIdeal.Read Idealize.ShloMosaic Idealize.ShloMosaic.ValueIdx

/-- The position (b, q, d) of the similarity array that flattened element e reads. -/
abbrev pos (e : Fin 33554432) : S128x32x8192.Idx := idx_main_v21 (idx_main_v24 (ix1 e))

/-- The converted, masked comparison of two tokens with the padding token is the weight. -/
theorem weight_read (dt qt : BitVec 32) :
    FloatOps.uitofp (F := Ideal) .f32 (IntOp.andi (IntOp.cmpi .ne dt 0#32) (IntOp.cmpi .ne qt 0#32)) = weight dt qt := by
  show (((IntOp.andi (IntOp.cmpi .ne dt 0#32) (IntOp.cmpi .ne qt 0#32)).toNat : ℝ) : EReal) = weight dt qt
  unfold weight IntOp.andi IntOp.cmpi
  by_cases h1 : dt = 0#32 <;> by_cases h2 : qt = 0#32 <;> simp [h1, h2]

/-- The index word of element e: the bin of its similarity plus 30 times its row. -/
theorem word_read (x0 : (⟨S128x32x8192, .f32⟩ : BufTy).Contents (Elt Ideal)) (e : Fin 33554432) :
    val_main_v27 (F := Ideal) x0 (ix2 e 0) = bin (x0 (pos e)) + BitVec.ofNat 32 (e.val / 8192) * 30#32 := by
  rw [val_main_v27_apply, val_main_v24_apply, val_main_v23_apply, val_main_v21_apply, val_main_v6_apply,
    val_main_v5_apply, val_main_v3_apply, val_main_v1_apply, val_main_v0_apply, val_main_cst_apply,
    val_main_v2_apply, val_main_cst_0_apply, val_main_v4_apply, val_main_cst_1_apply,
    val_main_v22_apply, val_main_v20_apply, val_main_v18_apply, val_main_v17_apply, val_main_v19_apply,
    val_main_c_3_apply]
  rfl

/-- The position (b, d) of the document tokens that flattened element e reads. -/
abbrev dpos (e : Fin 33554432) : S128x8192.Idx := idx_main_v7 (idx_main_v13 (idx_main_v25 (ix1 e)))

/-- The position (b, q) of the query tokens that flattened element e reads. -/
abbrev qpos (e : Fin 33554432) : S128x32.Idx := idx_main_v10 (idx_main_v14 (idx_main_v25 (ix1 e)))

/-- The update of element e: the weight of its document token and its query token. -/
theorem upd_read (x1 : (⟨S128x8192, .i32⟩ : BufTy).Contents (Elt Ideal))
    (x2 : (⟨S128x32, .i32⟩ : BufTy).Contents (Elt Ideal)) (e : Fin 33554432) :
    val_main_v25 (F := Ideal) x1 x2 (ix1 e) = weight (x1 (dpos e)) (x2 (qpos e)) := by
  rw [val_main_v25_apply, val_main_v16_apply, val_main_v15_apply, val_main_v13_apply, val_main_v9_apply,
    val_main_v7_apply, val_main_v8_apply, val_main_c_apply, val_main_v14_apply, val_main_v12_apply,
    val_main_v10_apply, val_main_v11_apply, val_main_c_2_apply]
  exact weight_read _ _

/-- The flattened element at document position d of row 32·b + q. -/
def el (b : Fin 128) (q : Fin 32) (d : Fin 8192) : Fin 33554432 :=
  ⟨(b.val * 32 + q.val) * 8192 + d.val, by have := b.isLt; have := q.isLt; have := d.isLt; omega⟩

theorem el_val (b : Fin 128) (q : Fin 32) (d : Fin 8192) : (el b q d).val = (b.val * 32 + q.val) * 8192 + d.val := rfl

theorem pos_el (b : Fin 128) (q : Fin 32) (d : Fin 8192) : pos (el b q d) = ix3 b q d := by
  have hb := b.isLt; have hq := q.isLt; have hd := d.isLt
  funext a
  match a with
  | ⟨0, _⟩ => exact Fin.ext (by show (((b.val * 32 + q.val) * 8192 + d.val) / 8192 * 8192 + ((b.val * 32 + q.val) * 8192 + d.val) % 8192) / 262144 = b.val; omega)
  | ⟨1, _⟩ => exact Fin.ext (by show (((b.val * 32 + q.val) * 8192 + d.val) / 8192 * 8192 + ((b.val * 32 + q.val) * 8192 + d.val) % 8192) / 8192 % 32 = q.val; omega)
  | ⟨2, _⟩ => exact Fin.ext (by show (((b.val * 32 + q.val) * 8192 + d.val) / 8192 * 8192 + ((b.val * 32 + q.val) * 8192 + d.val) % 8192) % 8192 = d.val; omega)

theorem dpos_el (b : Fin 128) (q : Fin 32) (d : Fin 8192) : dpos (el b q d) = ix2 b d := by
  have hb := b.isLt; have hq := q.isLt; have hd := d.isLt
  funext a
  match a with
  | ⟨0, _⟩ => exact Fin.ext (by show ((b.val * 32 + q.val) * 8192 + d.val) / 262144 = b.val; omega)
  | ⟨1, _⟩ => exact Fin.ext (by show ((b.val * 32 + q.val) * 8192 + d.val) % 8192 = d.val; omega)

theorem qpos_el (b : Fin 128) (q : Fin 32) (d : Fin 8192) : qpos (el b q d) = ix2 b q := by
  have hb := b.isLt; have hq := q.isLt; have hd := d.isLt
  funext a
  match a with
  | ⟨0, _⟩ => exact Fin.ext (by show ((b.val * 32 + q.val) * 8192 + d.val) / 262144 = b.val; omega)
  | ⟨1, _⟩ => exact Fin.ext (by show ((b.val * 32 + q.val) * 8192 + d.val) / 8192 % 32 = q.val; omega)

end Cert.Hist.Ref

end
-- ==== Proof.RefArith.lean ====
/-
  The segment word in 32-bit arithmetic.

  A bin z < 30 plus 30 times a row r < 4096 is the number 30·r + z < 122880, which fits a 32-bit word with room to
  spare, so the word's signed reading is that number; and 30·r + z = 30·R + k with z, k < 30 exactly when r = R and
  z = k (division with remainder by 30).
-/
import proofs.«101253_j5222680232145_1_alg».proof.Proof.HistSpec

namespace Cert.Hist.Ref

/-- The signed reading of (bin word) + (row word) · 30 is 30·r + z. -/
theorem word_toInt (z r : ℕ) (hz : z < 30) (hr : r < 4096) :
    (BitVec.ofNat 32 z + BitVec.ofNat 32 r * 30#32).toInt = ((30 * r + z : ℕ) : ℤ) := by
  have h : BitVec.ofNat 32 z + BitVec.ofNat 32 r * 30#32 = BitVec.ofNat 32 (30 * r + z) := by
    apply BitVec.eq_of_toNat_eq
    simp only [BitVec.toNat_add, BitVec.toNat_mul, BitVec.toNat_ofNat]
    omega
  have hn : (BitVec.ofNat 32 (30 * r + z)).toNat = 30 * r + z := by
    rw [BitVec.toNat_ofNat]; omega
  rw [h, BitVec.toInt_eq_toNat_of_lt (by rw [hn]; omega), hn]

/-- A word that is a bin z < 30, plus 30 times a row r < 4096, reads as segment 30·R + k (k < 30) exactly when
    the row is R and the word is k. -/
theorem target_iff (w : BitVec 32) (hw : ∃ z : ℕ, z < 30 ∧ w = BitVec.ofNat 32 z) (r R k : ℕ) (hr : r < 4096)
    (hk : k < 30) :
    (w + BitVec.ofNat 32 r * 30#32).toInt = ((R * 30 + k : ℕ) : ℤ) ↔ r = R ∧ w = BitVec.ofNat 32 k := by
  obtain ⟨z, hz, rfl⟩ := hw
  rw [word_toInt z r hz hr]
  constructor
  · intro h
    have h' : 30 * r + z = R * 30 + k := by exact_mod_cast h
    have hzk : z = k := by omega
    exact ⟨by omega, by rw [hzk]⟩
  · rintro ⟨rfl, h⟩
    have h' := congrArg BitVec.toNat h
    rw [BitVec.toNat_ofNat, BitVec.toNat_ofNat] at h'
    have hzk : z = k := by omega
    rw [hzk]
    exact_mod_cast (by omega : 30 * r + k = r * 30 + k)

end Cert.Hist.Ref
-- ==== Proof.RefSum.lean ====
/-
  The scattered sum of one segment collapses to the count of one row and one bin.

  The 33554432 flattened elements are the triples (b, q, d): element (32·b + q)·8192 + d.  The elements whose index
  word reads as segment (32·b + q)·30 + k are those of row (b, q) whose bin is k, so the sum over all elements of the
  updates landing on that segment is the sum over the 8192 document positions d of row (b, q) of the weight where the
  bin is k: the count.
-/
import proofs.«101253_j5222680232145_1_alg».proof.Proof.RefElems
import proofs.«101253_j5222680232145_1_alg».proof.Proof.RefArith

noncomputable section

open scoped BigOperators

namespace Cert.Hist.Ref

open Cert.ReferenceIdeal Idealize.ShloMosaic Idealize.ShloMosaic.ValueIdx

/-- The flattened elements are the triples (b, q, d). -/
def elEquiv : (Fin 128 × Fin 32) × Fin 8192 ≃ Fin 33554432 where
  toFun p := el p.1.1 p.1.2 p.2
  invFun e := ((⟨e.val / 262144, by have := e.isLt; omega⟩, ⟨e.val / 8192 % 32, by have := e.isLt; omega⟩),
    ⟨e.val % 8192, by have := e.isLt; omega⟩)
  left_inv := by
    rintro ⟨⟨b, q⟩, d⟩
    have hb := b.isLt; have hq := q.isLt; have hd := d.isLt
    refine Prod.ext (Prod.ext (Fin.ext ?_) (Fin.ext ?_)) (Fin.ext ?_)
    · show ((b.val * 32 + q.val) * 8192 + d.val) / 262144 = b.val; omega
    · show ((b.val * 32 + q.val) * 8192 + d.val) / 8192 % 32 = q.val; omega
    · show ((b.val * 32 + q.val) * 8192 + d.val) % 8192 = d.val; omega
  right_inv := by
    intro e
    have he := e.isLt
    apply Fin.ext
    show (e.val / 262144 * 32 + e.val / 8192 % 32) * 8192 + e.val % 8192 = e.val
    omega

/-- A sum over the flattened elements is the sum over b, q and d. -/
theorem sum_el {M : Type*} [AddCommMonoid M] (f : Fin 33554432 → M) :
    ∑ e, f e = ∑ b : Fin 128, ∑ q : Fin 32, ∑ d : Fin 8192, f (el b q d) := by
  rw [← Equiv.sum_comp elEquiv f, Fintype.sum_prod_type, Fintype.sum_prod_type]
  rfl

/-- The row of element (b, q, d) is 32·b + q. -/
theorem row_el (b : Fin 128) (q : Fin 32) (d : Fin 8192) : (el b q d).val / 8192 = b.val * 32 + q.val := by
  have hd := d.isLt
  rw [el_val]; omega

/-- The sum of the updates landing on segment (32·b + q)·30 + k is the count of row (b, q) in bin k, given that
    every bin word is a number below 30. -/
theorem sum_collapse (sim : S128x32x8192.Idx → EReal) (dt : S128x8192.Idx → BitVec 32) (qt : S128x32.Idx → BitVec 32)
    (hbin : ∀ j, ∃ z : ℕ, z < 30 ∧ bin (sim j) = BitVec.ofNat 32 z) (b : Fin 128) (q : Fin 32) (k : Fin 30) :
    (∑ e : Fin 33554432,
      if (bin (sim (pos e)) + BitVec.ofNat 32 (e.val / 8192) * 30#32).toInt = (((b.val * 32 + q.val) * 30 + k.val : ℕ) : ℤ)
        then weight (dt (dpos e)) (qt (qpos e)) else 0)
      = count sim dt qt b q k := by
  have hterm : ∀ e : Fin 33554432,
      (if (bin (sim (pos e)) + BitVec.ofNat 32 (e.val / 8192) * 30#32).toInt = (((b.val * 32 + q.val) * 30 + k.val : ℕ) : ℤ)
        then weight (dt (dpos e)) (qt (qpos e)) else 0)
      = if e.val / 8192 = b.val * 32 + q.val
          then term (sim (pos e)) (dt (dpos e)) (qt (qpos e)) (BitVec.ofNat 32 k.val) else 0 := by
    intro e
    have he := e.isLt
    have hiff := target_iff (bin (sim (pos e))) (hbin (pos e)) (e.val / 8192) (b.val * 32 + q.val) k.val (by omega) k.isLt
    unfold term
    by_cases h1 : e.val / 8192 = b.val * 32 + q.val
    · by_cases h2 : bin (sim (pos e)) = BitVec.ofNat 32 k.val
      · rw [if_pos (hiff.mpr ⟨h1, h2⟩), if_pos h1, if_pos h2]
      · rw [if_neg (fun h => h2 (hiff.mp h).2), if_pos h1, if_neg h2]
    · rw [if_neg (fun h => h1 (hiff.mp h).1), if_neg h1]
  rw [Finset.sum_congr rfl (fun e _ => hterm e), sum_el, Fintype.sum_eq_single b, Fintype.sum_eq_single q]
  · unfold count
    refine Finset.sum_congr rfl (fun d _ => ?_)
    rw [if_pos (row_el b q d), pos_el, dpos_el, qpos_el]
  · intro q' hq'
    refine Finset.sum_eq_zero (fun d _ => if_neg ?_)
    rw [row_el]
    intro h
    exact hq' (Fin.ext (by omega))
  · intro b' hb'
    refine Finset.sum_eq_zero (fun q' _ => Finset.sum_eq_zero (fun d _ => if_neg ?_))
    rw [row_el]
    intro h
    have hq := q.isLt; have hq' := q'.isLt
    exact hb' (Fin.ext (by omega))

end Cert.Hist.Ref

end
-- ==== Proof.HistBins.lean ====
/-
  A similarity in [-1, 1] falls in one of the thirty bins.

  The three constants of the bin formula are the reals c = 1 + 2⁻²⁰, 2 and 29.  For -1 ≤ x ≤ 1 the value
  y = ((x + c) / 2) · 29 lies in [0, 30): x + c ≥ c - 1 > 0, and (1 + c) / 2 · 29 = 29 + 29 · 2⁻²¹ < 30.  Rounding
  toward zero of a nonnegative real is its floor, the clamp to the 32-bit range does nothing, and the floor of a real
  in [0, 30) is a natural number below 30.
-/
import proofs.«101253_j5222680232145_1_alg».proof.Proof.HistSpec

noncomputable section

namespace Cert.Hist

open Idealize.ShloMosaic

/-- The divisor of the bin formula is the real 2. -/
theorem ofBits_two : Ideal.ofBits .f32 0x40000000#32 = ((2 : ℝ) : EReal) := by
  simp [Ideal.ofBits, Ideal.ieee, -EReal.coe_mul]; norm_num

/-- The scale of the bin formula is the real 29. -/
theorem ofBits_twentyNine : Ideal.ofBits .f32 0x41E80000#32 = ((29 : ℝ) : EReal) := by
  simp [Ideal.ofBits, Ideal.ieee, -EReal.coe_mul]; norm_num

/-- The shift of the bin formula is the real 1 + 2⁻²⁰. -/
theorem ofBits_shift : Ideal.ofBits .f32 0x3F800008#32 = ((1048577 / 1048576 : ℝ) : EReal) := by
  simp [Ideal.ofBits, Ideal.ieee, -EReal.coe_mul]; norm_num

/-- An extended real between -1 and 1 is a real. -/
theorem exists_real_of_mem (x : EReal) (h1 : (-1 : EReal) ≤ x) (h2 : x ≤ 1) :
    ∃ r : ℝ, x = (r : EReal) ∧ -1 ≤ r ∧ r ≤ 1 := by
  induction x using EReal.rec with
  | bot =>
    exfalso
    have h : ((-1 : ℝ) : EReal) ≤ ⊥ := by simpa using h1
    exact absurd (le_bot_iff.mp h) (EReal.coe_ne_bot _)
  | top =>
    exfalso
    have h : (⊤ : EReal) ≤ ((1 : ℝ) : EReal) := by simpa using h2
    exact absurd (top_le_iff.mp h) (EReal.coe_ne_top _)
  | coe r =>
    have h1' : ((-1 : ℝ) : EReal) ≤ (r : EReal) := by simpa using h1
    have h2' : (r : EReal) ≤ ((1 : ℝ) : EReal) := by simpa using h2
    exact ⟨r, rfl, EReal.coe_le_coe_iff.mp h1', EReal.coe_le_coe_iff.mp h2'⟩

/-- The bin formula at a real similarity, as a real. -/
theorem binArg_coe (r : ℝ) :
    Ideal.div ((r : EReal) + Ideal.ofBits .f32 0x3F800008#32) (Ideal.ofBits .f32 0x40000000#32)
        * Ideal.ofBits .f32 0x41E80000#32
      = (((r + 1048577 / 1048576) * (1 / 2) * 29 : ℝ) : EReal) := by
  rw [ofBits_shift, ofBits_two, ofBits_twentyNine, Ideal.div_coe (by norm_num : (2 : ℝ) ≠ 0)]
  norm_cast

/-- A similarity in [-1, 1] has a bin below 30. -/
theorem bin_lt (x : EReal) (h1 : (-1 : EReal) ≤ x) (h2 : x ≤ 1) :
    ∃ z : ℕ, z < 30 ∧ bin x = BitVec.ofNat 32 z := by
  obtain ⟨r, rfl, hr1, hr2⟩ := exists_real_of_mem x h1 h2
  have hy0 : (0 : ℝ) ≤ (r + 1048577 / 1048576) * (1 / 2) * 29 := by nlinarith
  have hy30 : (r + 1048577 / 1048576) * (1 / 2) * 29 < 30 := by nlinarith
  have hf0 : 0 ≤ ⌊(r + 1048577 / 1048576) * (1 / 2) * 29⌋ := Int.floor_nonneg.mpr hy0
  have hf30 : ⌊(r + 1048577 / 1048576) * (1 / 2) * 29⌋ < 30 := Int.floor_lt.mpr (by exact_mod_cast hy30)
  refine ⟨⌊(r + 1048577 / 1048576) * (1 / 2) * 29⌋.toNat, by omega, ?_⟩
  unfold bin
  rw [binArg_coe]
  unfold Ideal.fptosi
  rw [Ideal.toIntClamped_coe, if_pos hy0]
  have hclamp : max (-((2 ^ (32 - 1) : ℕ) : ℤ)) (min (((2 ^ (32 - 1) : ℕ) : ℤ) - 1) ⌊(r + 1048577 / 1048576) * (1 / 2) * 29⌋)
      = ((⌊(r + 1048577 / 1048576) * (1 / 2) * 29⌋.toNat : ℕ) : ℤ) := by
    rw [Int.toNat_of_nonneg hf0]
    have e : ((2 ^ (32 - 1) : ℕ) : ℤ) = 2147483648 := by norm_num
    rw [e]
    omega
  rw [hclamp, BitVec.ofInt_natCast]

end Cert.Hist

end
-- ==== Proof.RefValue.lean ====
/-
  The reference program's result is the histogram.

  Entry (b, q, k) of the result is log (segment + ε) where the segment is entry (32·b + q)·30 + k of the scattered
  vector: zero plus the sum of the updates landing there, which is the count of row (b, q) in bin k because, the
  similarities lying in [-1, 1], every bin word is a number below 30 and no update leaves its row.
-/
import proofs.«101253_j5222680232145_1_alg».proof.Proof.RefScatter
import proofs.«101253_j5222680232145_1_alg».proof.Proof.RefSum
import proofs.«101253_j5222680232145_1_alg».proof.Proof.HistBins

noncomputable section

open scoped BigOperators

namespace Cert.Hist.Ref

open Cert.ReferenceIdeal Cert.ReferenceIdeal.Gen Cert.ReferenceIdeal.Read Idealize.ShloMosaic Idealize.ShloMosaic.ValueIdx

/-- The segment of row (b, q) and bin k. -/
def seg (b : Fin 128) (q : Fin 32) (k : Fin 30) : Fin 122880 :=
  ⟨(b.val * 32 + q.val) * 30 + k.val, by have := b.isLt; have := q.isLt; have := k.isLt; omega⟩

theorem seg_val (b : Fin 128) (q : Fin 32) (k : Fin 30) : (seg b q k).val = (b.val * 32 + q.val) * 30 + k.val := rfl

/-- Entry (b, q, k) of the reshaped result reads segment (32·b + q)·30 + k. -/
theorem idx29_ix3 (b : Fin 128) (q : Fin 32) (k : Fin 30) : idx_main_v29 (ix3 b q k) = ix1 (seg b q k) := by
  funext a
  match a with
  | ⟨0, _⟩ => rfl

/-- The all-zero pattern denotes 0. -/
theorem ofBits_zero : Ideal.ofBits .f32 0x00000000#32 = 0 := by simp [Ideal.ofBits, Ideal.ieee]

/-- The reference program computes the histogram, for similarities in [-1, 1]. -/
theorem reference_eq (x0 : (⟨S128x32x8192, .f32⟩ : BufTy).Contents (Elt Ideal))
    (x1 : (⟨S128x8192, .i32⟩ : BufTy).Contents (Elt Ideal)) (x2 : (⟨S128x32, .i32⟩ : BufTy).Contents (Elt Ideal))
    (hx : ∀ i, (-1 : EReal) ≤ x0 i ∧ x0 i ≤ 1) :
    val_main_v32 (F := Ideal) x0 x1 x2 = Cert.Hist.result x0 x1 x2 := by
  funext i
  obtain ⟨b, q, k, rfl⟩ : ∃ b q k, i = ix3 b q k := ⟨i 0, i 1, i 2, eq_ix3 i⟩
  rw [result_apply, val_main_v32_apply, val_main_v31_apply, val_main_v29_apply, val_main_v30_apply,
    val_main_cst_5_apply, idx29_ix3, scatter_read, val_main_v26_apply, val_main_cst_4_apply]
  simp only [word_read, upd_read, seg_val]
  rw [sum_collapse x0 x1 x2 (fun j => bin_lt (x0 j) (hx j).1 (hx j).2) b q k]
  rw [Ideal.hostUnary_log_def, Ideal.addf_def, Ideal.ofBits_def, Ideal.ofBits_def, ofBits_zero, zero_add]

end Cert.Hist.Ref

end
-- ==== Proof.KernContrib.lean ====
/-
  What one grid point adds to the running counts: the thirty per-bin masked sums of the point's blocks, side by side.
  Written over the body's own payload terms, in the order the body composes them: the bin words of the similarity
  block, the weights of the two token blocks, one masked lane sum per bin, and their concatenation along the bin axis.
-/
import proofs.«101253_j5222680232145_1_alg».proof.Proof.Gen.KernelIdeal.Skeleton

noncomputable section

namespace Cert.Hist.Kern

open Idealize.ShloMosaic Cert.KernelIdeal Cert.KernelIdeal.Gen

variable {F : FTy → Type} [FloatOps F]

/-- The bin words of a similarity block. -/
abbrev binsOf (v3 : Vec F S16x32x2048 .f32) : IVec S16x32x2048 32 := k0_pay6 v3

/-- The weights of a (document tokens, query tokens) pair of blocks, over the block's (row, query, position) indices. -/
abbrev weightsOf (v4 : Vec F S16x2048 .i32) (v5 : Vec F S16x32 .i32) : FVec F S16x32x2048 .f32 := k0_pay7 v4 v5

/-- The point's contribution to the counts: bin k's masked lane sum in column k. -/
def contrib (v3 : Vec F S16x32x2048 .f32) (v4 : Vec F S16x2048 .i32) (v5 : Vec F S16x32 .i32) : FVec F S16x32x30 .f32 :=
  k0_pay2
    (k0_pay8 v3 v4 v5)
    (k0_pay10 (k0_pay9 v3 v4 v5))
    (k0_pay11 (k0_pay6 v3) (k0_pay7 v4 v5))
    (k0_pay12 (k0_pay6 v3) (k0_pay7 v4 v5))
    (k0_pay13 (k0_pay6 v3) (k0_pay7 v4 v5))
    (k0_pay14 (k0_pay6 v3) (k0_pay7 v4 v5))
    (k0_pay15 (k0_pay6 v3) (k0_pay7 v4 v5))
    (k0_pay16 (k0_pay6 v3) (k0_pay7 v4 v5))
    (k0_pay18 (k0_pay7 v4 v5) (k0_pay17 (k0_pay6 v3)))
    (k0_pay19 (k0_pay6 v3) (k0_pay7 v4 v5))
    (k0_pay20 (k0_pay6 v3) (k0_pay7 v4 v5))
    (k0_pay21 (k0_pay6 v3) (k0_pay7 v4 v5))
    (k0_pay22 (k0_pay6 v3) (k0_pay7 v4 v5))
    (k0_pay23 (k0_pay6 v3) (k0_pay7 v4 v5))
    (k0_pay24 (k0_pay6 v3) (k0_pay7 v4 v5))
    (k0_pay26 (k0_pay6 v3) (k0_pay7 v4 v5) k0_pay25)
    (k0_pay27 (k0_pay6 v3) (k0_pay7 v4 v5))
    (k0_pay28 (k0_pay6 v3) (k0_pay7 v4 v5))
    (k0_pay29 (k0_pay6 v3) (k0_pay7 v4 v5))
    (k0_pay30 (k0_pay6 v3) (k0_pay7 v4 v5))
    (k0_pay31 (k0_pay6 v3) (k0_pay7 v4 v5))
    (k0_pay33 (k0_pay32 (k0_pay6 v3) (k0_pay7 v4 v5)))
    (k0_pay34 (k0_pay6 v3) (k0_pay7 v4 v5))
    (k0_pay35 (k0_pay6 v3) (k0_pay7 v4 v5))
    (k0_pay36 (k0_pay6 v3) (k0_pay7 v4 v5))
    (k0_pay37 (k0_pay6 v3) (k0_pay7 v4 v5))
    (k0_pay38 (k0_pay6 v3) (k0_pay7 v4 v5))
    (k0_pay39 (k0_pay6 v3) (k0_pay7 v4 v5))
    (mulf (k0_pay40 (k0_pay6 v3)) (k0_pay7 v4 v5))
    (k0_pay1 (k0_pay6 v3) (k0_pay7 v4 v5))

end Cert.Hist.Kern

end
-- ==== Proof.KernPieces.lean ====
/-
  What each of the three control cases of the histogram body leaves behind, as values.

  The body keeps running counts in a scratch block.  At the first point of a row block's run (position ≡ 0 mod 4) it
  resets the scratch to the zero block and adds the point's contribution; at the middle points (≡ 1, 2) it adds the
  contribution to what the point before left; at the last point (≡ 3) it adds the contribution and stores the output
  block log (counts + ε).  Each lemma reads the case's stores back: the covering store's payload, its loads reading the
  whole buffers.  All are stated for any float instance.
-/
import proofs.«101253_j5222680232145_1_alg».proof.Proof.Gen.KernelIdeal.Value
import proofs.«101253_j5222680232145_1_alg».proof.Proof.KernContrib
import Idealize.ShloMosaic.Lib.Pipeline.Value
import Idealize.ShloMosaic.Lib.Tactic

noncomputable section

namespace Cert.Hist.Kern

open Idealize.ShloMosaic Idealize.ShloMosaic.TcCoe Idealize.SL.Sem Idealize.ShloMosaic.Tactic
open Cert.KernelIdeal Cert.KernelIdeal.Gen
open Idealize.ShloMosaic.Pipeline (Dat)

variable {F : FTy → Type} [FloatOps F]

theorem hz3 : (![0, 0, 0] : Fin 3 → Nat) = fun _ => 0 := funext fun a => by fin_cases a <;> rfl
theorem hz2 : (![0, 0] : Fin 2 → Nat) = fun _ => 0 := funext fun a => by fin_cases a <;> rfl

/-- The zero block the reset stores. -/
abbrev zeroBlock : FVec F S16x32x30 .f32 := k0_pay5

/-- A point's step on the running counts: the counts so far plus the point's contribution. -/
abbrev step (x0 : Vec F S16x32x2048 .f32) (x1 : Vec F S16x2048 .i32) (x2 : Vec F S16x32 .i32)
    (acc : Vec F S16x32x30 .f32) : FVec F S16x32x30 .f32 := k0_pay3 (contrib x0 x1 x2) acc

/-- At a middle point of a row block's run the scratch holding `xs0` is left at `xs0` plus the point's contribution:
    the one covering store's payload, its loads reading the whole buffers. -/
theorem sout_B (c : Dev nD) (i : grid0.Coords) (a2 : Memref sig .tc .vmem S16x32x2048 .f32) (h2 : a2.IsWhole)
    (a3 : Memref sig .tc .vmem S16x2048 .i32) (h3 : a3.IsWhole) (a4 : Memref sig .tc .vmem S16x32 .i32) (h4 : a4.IsWhole)
    (a5 : Memref sig .tc .vmem S16x32x30 .f32) (h5 : a5.IsWhole) (a6 : Memref sig .tc .vmem S16x32x30 .f32) (h6 : a6.IsWhole)
    (hc0 : ¬cond0_0 i) (hc1 : ¬cond0_1 i)
    (x0 : Vec F S16x32x2048 .f32) (x1 : Vec F S16x2048 .i32) (x2 : Vec F S16x32 .i32) (xs0 : Vec F S16x32x30 .f32) :
    sout0_B_0 c i a2 h2 a3 h3 a4 h4 a5 h5 a6 h6 hc0 hc1 x0 x1 x2 xs0 = step x0 x1 x2 xs0 := by
  unfold sout0_B_0
  rw [View.read_writes_eq_canon _ _ _ (scover0_B_0 c i a2 h2 a3 h3 a4 h4 a5 h5 a6 h6 hc0 hc1 x0 x1 x2 xs0)]
  unfold kernelRun0_B
  dsimp only
  sl_unfold_words
  rw [View.canon_unit_zero hz3]
  simp only [View.readAt_eq_ld, h2.read_unread, h3.read_unread, h4.read_unread, h6.read_unread,
    View.ld_unit_zero (S := S16x32x30) hz3, View.ld_unit_zero (S := S16x32x2048) hz3,
    View.ld_unit_zero (S := S16x2048) hz2, View.ld_unit_zero (S := S16x32) hz2]
  rfl

/-- At the last point of a run the scratch is stepped the same way. -/
theorem sout_C (c : Dev nD) (i : grid0.Coords) (a2 : Memref sig .tc .vmem S16x32x2048 .f32) (h2 : a2.IsWhole)
    (a3 : Memref sig .tc .vmem S16x2048 .i32) (h3 : a3.IsWhole) (a4 : Memref sig .tc .vmem S16x32 .i32) (h4 : a4.IsWhole)
    (a5 : Memref sig .tc .vmem S16x32x30 .f32) (h5 : a5.IsWhole) (a6 : Memref sig .tc .vmem S16x32x30 .f32) (h6 : a6.IsWhole)
    (hc0 : ¬cond0_0 i) (hc1 : cond0_1 i)
    (x0 : Vec F S16x32x2048 .f32) (x1 : Vec F S16x2048 .i32) (x2 : Vec F S16x32 .i32) (xs0 : Vec F S16x32x30 .f32) :
    sout0_C_0 c i a2 h2 a3 h3 a4 h4 a5 h5 a6 h6 hc0 hc1 x0 x1 x2 xs0 = step x0 x1 x2 xs0 := by
  unfold sout0_C_0
  rw [View.read_writes_eq_canon _ _ _ (scover0_C_0 c i a2 h2 a3 h3 a4 h4 a5 h5 a6 h6 hc0 hc1 x0 x1 x2 xs0)]
  unfold kernelRun0_C
  dsimp only
  sl_unfold_words
  rw [View.canon_unit_zero hz3]
  simp only [View.readAt_eq_ld, h2.read_unread, h3.read_unread, h4.read_unread, h6.read_unread,
    View.ld_unit_zero (S := S16x32x30) hz3, View.ld_unit_zero (S := S16x32x2048) hz3,
    View.ld_unit_zero (S := S16x2048) hz2, View.ld_unit_zero (S := S16x32) hz2]
  rfl

/-- … and the output block is stored from the stepped scratch: the logarithm of the counts plus ε. -/
theorem out_C (c : Dev nD) (i : grid0.Coords) (a2 : Memref sig .tc .vmem S16x32x2048 .f32) (h2 : a2.IsWhole)
    (a3 : Memref sig .tc .vmem S16x2048 .i32) (h3 : a3.IsWhole) (a4 : Memref sig .tc .vmem S16x32 .i32) (h4 : a4.IsWhole)
    (a5 : Memref sig .tc .vmem S16x32x30 .f32) (h5 : a5.IsWhole) (a6 : Memref sig .tc .vmem S16x32x30 .f32) (h6 : a6.IsWhole)
    (hc0 : ¬cond0_0 i) (hc1 : cond0_1 i)
    (x0 : Vec F S16x32x2048 .f32) (x1 : Vec F S16x2048 .i32) (x2 : Vec F S16x32 .i32) (xs0 : Vec F S16x32x30 .f32) :
    out0_C_3 c i a2 h2 a3 h3 a4 h4 a5 h5 a6 h6 hc0 hc1 x0 x1 x2 xs0 = k0_pay4 (step x0 x1 x2 xs0) := by
  unfold out0_C_3
  rw [View.read_writes_eq_canon _ _ _ (cover0_C_3 c i a2 h2 a3 h3 a4 h4 a5 h5 a6 h6 hc0 hc1 x0 x1 x2 xs0)]
  unfold kernelRun0_C
  dsimp only
  sl_unfold_words
  rw [View.canon_unit_zero hz3]
  simp only [View.readCov_unit_zero (S := S16x32x30) _ hz3, View.readAt_eq_ld, h2.read_unread, h3.read_unread,
    h4.read_unread, h6.read_unread,
    View.ld_unit_zero (S := S16x32x30) hz3, View.ld_unit_zero (S := S16x32x2048) hz3,
    View.ld_unit_zero (S := S16x2048) hz2, View.ld_unit_zero (S := S16x32) hz2]
  rfl

/-- At the first point of a run the scratch is reset and then stepped: the zero block plus the point's contribution
    (two stores; the later one covers the buffer, and its load reads the zero block back). -/
theorem sout_A (c : Dev nD) (i : grid0.Coords) (a2 : Memref sig .tc .vmem S16x32x2048 .f32) (h2 : a2.IsWhole)
    (a3 : Memref sig .tc .vmem S16x2048 .i32) (h3 : a3.IsWhole) (a4 : Memref sig .tc .vmem S16x32 .i32) (h4 : a4.IsWhole)
    (a5 : Memref sig .tc .vmem S16x32x30 .f32) (h5 : a5.IsWhole) (a6 : Memref sig .tc .vmem S16x32x30 .f32) (h6 : a6.IsWhole)
    (hc0 : cond0_0 i) (hc1 : ¬cond0_1 i)
    (x0 : Vec F S16x32x2048 .f32) (x1 : Vec F S16x2048 .i32) (x2 : Vec F S16x32 .i32) :
    sout0_A_0 c i a2 h2 a3 h3 a4 h4 a5 h5 a6 h6 hc0 hc1 x0 x1 x2 = step x0 x1 x2 zeroBlock := by
  unfold sout0_A_0
  rw [View.read_writes_eq_canon _ _ _ (scover0_A_0 c i a2 h2 a3 h3 a4 h4 a5 h5 a6 h6 hc0 hc1 x0 x1 x2)]
  unfold kernelRun0_A
  dsimp only
  sl_unfold_words
  rw [View.canon_cons_unit_zero (S := S16x32x30) hz3]
  simp only [View.readCov_unit_zero (S := S16x32x30) _ hz3, View.readAt_eq_ld, h2.read_unread, h3.read_unread, h4.read_unread, h6.read_unread,
    View.ld_unit_zero (S := S16x32x30) hz3, View.ld_unit_zero (S := S16x32x2048) hz3,
    View.ld_unit_zero (S := S16x2048) hz2, View.ld_unit_zero (S := S16x32) hz2]
  rfl

end Cert.Hist.Kern

end
-- ==== Proof.KernFold.lean ====
/-
  The running counts across a row block's run of four grid points.

  The scratch block is reset at the first point of each run and stepped by every point's contribution; the output
  block of the run's last point is log (scratch + ε).  Over the extended reals a step adds the contribution index by
  index, so after the point at offset p of its run the scratch holds 0 plus the sum of the contributions of the run's
  first p + 1 points.
-/
import proofs.«101253_j5222680232145_1_alg».proof.Proof.KernPieces
import Idealize.ShloMosaic.PureOps.Ideal
import Idealize.ShloMosaic.PureOps.Ideal.Laws
import Idealize.ShloMosaic.Lib.ValueIdx

noncomputable section

namespace Cert.Hist.Kern

open Idealize.ShloMosaic Idealize.ShloMosaic.TcCoe Idealize.SL.Sem Idealize.ShloMosaic.Tactic
open Cert.KernelIdeal Cert.KernelIdeal.Gen
open Idealize.ShloMosaic.Pipeline (Dat)
open scoped BigOperators

section AnyInstance
variable {F : FTy → Type} [FloatOps F]
variable (m : (ℓ : Loc nD τ sig) → Buf (Elt F) ℓ)

/-- At the first point of a run (position ≡ 0 mod 4) the scratch is left at the zero block stepped by the point's blocks,
    whatever it held. -/
theorem scAt_first (c : Dev nD) (n : ℕ) (hb : n < cfg0.N) (h0 : n % 4 = 0) (acc : Vec F S16x32x30 .f32) :
    Value.scAt0_0 m c n hb acc = step (iblk m c 0 (⟨n, hb⟩ : Fin cfg0.N)) (iblk m c 1 (⟨n, hb⟩ : Fin cfg0.N)) (iblk m c 2 (⟨n, hb⟩ : Fin cfg0.N)) zeroBlock := by
  have h1 : ¬n % 4 = 3 := by omega
  unfold Value.scAt0_0
  rw [dif_pos h0, dif_neg h1]
  exact sout_A c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) scM0_0 (Memref.isWhole_whole _) ((hcond0_0 (⟨n, hb⟩ : Fin cfg0.N)).mpr h0) (fun h => h1 ((hcond0_1 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N))

/-- At every other point it is left at what it held stepped by the point's blocks. -/
theorem scAt_later (c : Dev nD) (n : ℕ) (hb : n < cfg0.N) (h0 : ¬n % 4 = 0) (acc : Vec F S16x32x30 .f32) :
    Value.scAt0_0 m c n hb acc = step (iblk m c 0 (⟨n, hb⟩ : Fin cfg0.N)) (iblk m c 1 (⟨n, hb⟩ : Fin cfg0.N)) (iblk m c 2 (⟨n, hb⟩ : Fin cfg0.N)) acc := by
  unfold Value.scAt0_0
  rw [dif_neg h0]
  by_cases h1 : n % 4 = 3
  · rw [dif_pos h1]
    exact sout_C c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) scM0_0 (Memref.isWhole_whole _) (fun h => h0 ((hcond0_0 (⟨n, hb⟩ : Fin cfg0.N)).mp h)) ((hcond0_1 (⟨n, hb⟩ : Fin cfg0.N)).mpr h1) (iblk m c 0 (⟨n, hb⟩ : Fin cfg0.N)) (iblk m c 1 (⟨n, hb⟩ : Fin cfg0.N)) (iblk m c 2 (⟨n, hb⟩ : Fin cfg0.N)) acc
  · rw [dif_neg h1]
    exact sout_B c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) scM0_0 (Memref.isWhole_whole _) (fun h => h0 ((hcond0_0 (⟨n, hb⟩ : Fin cfg0.N)).mp h)) (fun h => h1 ((hcond0_1 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N)) acc

/-- At the last point of a run (position ≡ 3 mod 4) the output block is log (counts + ε) of the scratch as the point leaves it. -/
theorem out_last (c : Dev nD) (t : Fin cfg0.N) (h0 : ¬t.val % 4 = 0) (h1 : t.val % 4 = 3) :
    (outsAt0 m c t.val t.isLt).1 = k0_pay4 (outsAt0 m c t.val t.isLt).2 := by
  rw [outsAt0_C m c t h0 h1]
  dsimp only
  rw [out_C c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) (iblk m c 0 t) (iblk m c 1 t) (iblk m c 2 t) (outsAt0 m c (t.val - 1) (Nat.lt_of_le_of_lt (Nat.sub_le _ _) t.isLt)).2,
    sout_C c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) (iblk m c 0 t) (iblk m c 1 t) (iblk m c 2 t) (outsAt0 m c (t.val - 1) (Nat.lt_of_le_of_lt (Nat.sub_le _ _) t.isLt)).2]

end AnyInstance

/-! ## Over the extended reals -/

variable (m : (ℓ : Loc nD τ sig) → Buf (Elt Ideal) ℓ)

/-- A step at an index adds the contribution there. -/
theorem step_apply (x0 : Vec Ideal S16x32x2048 .f32) (x1 : Vec Ideal S16x2048 .i32) (x2 : Vec Ideal S16x32 .i32)
    (acc : Vec Ideal S16x32x30 .f32) (i : S16x32x30.Idx) :
    step (F := Ideal) x0 x1 x2 acc i = acc i + contrib (F := Ideal) x0 x1 x2 i := by
  unfold step k0_pay3
  rw [shapeCast_self]
  rfl

/-- The zero block is zero everywhere. -/
theorem zeroBlock_apply (i : S16x32x30.Idx) : zeroBlock (F := Ideal) i = 0 := by
  unfold zeroBlock k0_pay5
  rw [shapeCast_self]
  exact Ideal.ofBits_zero_f32

/-- What grid point `n` adds to the counts (zero past the grid, where it is never used). -/
def addend (c : Dev nD) (n : ℕ) (i : S16x32x30.Idx) : EReal :=
  if hb : n < cfg0.N then contrib (F := Ideal) (iblk m c 0 (⟨n, hb⟩ : Fin cfg0.N)) (iblk m c 1 (⟨n, hb⟩ : Fin cfg0.N)) (iblk m c 2 (⟨n, hb⟩ : Fin cfg0.N)) i else 0

theorem addend_of_lt (c : Dev nD) (n : ℕ) (hb : n < cfg0.N) (i : S16x32x30.Idx) :
    addend m c n i = contrib (F := Ideal) (iblk m c 0 (⟨n, hb⟩ : Fin cfg0.N)) (iblk m c 1 (⟨n, hb⟩ : Fin cfg0.N)) (iblk m c 2 (⟨n, hb⟩ : Fin cfg0.N)) i := dif_pos hb

/-- The scratch after point `t` holds, at every index, the sum of the contributions of the points of `t`'s run up to `t`. -/
theorem scratch_apply (c : Dev nD) (t : Fin cfg0.N) (i : S16x32x30.Idx) :
    (outsAt0 m c t.val t.isLt).2 i = 0 + ∑ s ∈ Finset.range (t.val % 4 + 1), addend m c (4 * (t.val / 4) + s) i := by
  rw [Value.soutsAt0_0_eq m c t]
  refine Pipeline.accAt_add_apply (fun n h => Value.scAt0_0 m c n h (VS0_0.read (Elt Ideal) VS0_0.junk)) (Value.scAt0_0 m c)
    (fun _ => 0) (addend m c) (4 * (t.val / 4)) 3 ?_ ?_ (t.val % 4) (by omega) _ i
  · intro hb i
    have h0 : (4 * (t.val / 4)) % 4 = 0 := Nat.mul_mod_right 4 _
    show Value.scAt0_0 m c (4 * (t.val / 4)) hb _ i = 0 + addend m c (4 * (t.val / 4)) i
    rw [scAt_first m c (4 * (t.val / 4)) hb h0, step_apply, zeroBlock_apply, addend_of_lt m c _ hb]
  · intro n hb acc i hlo hhi
    have h0 : ¬n % 4 = 0 := by omega
    rw [scAt_later m c n hb h0, step_apply, addend_of_lt m c _ hb]

end Cert.Hist.Kern

end
-- ==== Proof.LibRank3Sums.lean ====
/-
  Sums over the trailing axes of a rank-3 array, and a column read as a vector, by coordinates.

  * `laneSum3_apply`: a float lane sum of an `[a, b, c]` array over its last axis from the zero pattern is, at
    `(p, q)`, the sum over `k` of the entry `(p, q, k)`.
  * `hostSum12_apply`: the host's float sum of an `[a, b, c]` array over its last TWO axes is, at `p`, the initial
    value plus the double sum over `(k, v)` of the entry `(p, k, v)`: the indices that drop to `p` are exactly the
    `(p, k, v)`, each once.
  * `hostSum2_apply`: the host's float sum of an `[a, b, c]` array over its last axis is, at `(p, q)`, the initial value
    plus the sum over `k` of the entry `(p, q, k)`.
  * `shapeCast_a1_a_apply`: an `[a, 1]` column reshaped to `[a]` has at `i` the entry `(i, 0)`.
  General in the extents; on the extended reals no finiteness is used (only that `+` commutes and associates).
-/
import Idealize.ShloMosaic.Lib.Pipeline.Value
import Idealize.ShloMosaic.Lib.ValueIdx
import Idealize.ShloMosaic.PureOps.Ideal.Laws

namespace Cert.LibRank3Sums

open Idealize.ShloMosaic Idealize.ShloMosaic.ValueIdx

variable {α : Type}

/-- An `[a, 1]` column cast to `[a]` reads, at `i`, the operand at `(i, u)`: both have row-major position `i`. -/
theorem shapeCast_a1_a_apply {a : ℕ} (X : (⟨2, ![a, 1]⟩ : Shape).Idx → α)
    (h : (⟨2, ![a, 1]⟩ : Shape).ShapeCasts ⟨1, ![a]⟩) (i : Fin a) (u : Fin 1) :
    shapeCast ⟨1, ![a]⟩ X h (ix1 i) = X (ix2 i u) :=
  shapeCast_apply X h _ _ (by
    have hu : u.val = 0 := by omega
    rw [Shape.rowMajor_val_two, Shape.rowMajor_val_one]
    show i.val * 1 + u.val = i.val
    rw [hu, Nat.mul_one, Nat.add_zero])

/-- A float lane sum of an `[a, b, c]` array over its last axis from the zero pattern, read at `(p, q)`, is the sum
    over the lane coordinate `k` of the entry `(p, q, k)`. -/
theorem laneSum3_apply {a b c : ℕ} (src : FVec Ideal ⟨3, ![a, b, c]⟩ .f32)
    (h : (⟨3, ![a, b, c]⟩ : Shape).Reduces [2] ⟨2, ![a, b]⟩) (hφ : FKind.Formats .f32)
    (hacc : (0x00000000#32 : BitVec 32) = FKind.add.neutral .f32 hφ) (p : Fin a) (q : Fin b) :
    multiReduction .add [2] ⟨2, ![a, b]⟩ src 0x00000000#32 h hφ hacc (ix2 p q) = ∑ k : Fin c, src (ix3 p q k) := by
  refine (Ideal.multiReduction_add_single src _ h hφ hacc (ix2 p q)).trans ?_
  refine Finset.sum_congr rfl fun k _ => congrArg src ?_
  funext d
  apply Fin.ext
  match d with
  | ⟨0, _⟩ => rfl
  | ⟨1, _⟩ => rfl
  | ⟨2, _⟩ => rfl

/-- The host's float sum over the last axis of an `[a, b, c]` array, read at `(p, q)`: the initial value plus the sum
    over `k` of the entry `(p, q, k)`. -/
theorem hostSum2_apply {a b c : ℕ} (h' : (⟨3, ![a, b, c]⟩ : Shape).ReducesTo [2] ⟨2, ![a, b]⟩)
    (x : (⟨3, ![a, b, c]⟩ : Shape).Idx → EReal) (init : EReal) (p : Fin a) (q : Fin b) :
    Ideal.hostReduceAdd h' x init (ix2 p q) = init + ∑ k : Fin c, x (ix3 p q k) := by
  have h : (⟨3, ![a, b, c]⟩ : Shape).Reduces [2] ⟨2, ![a, b]⟩ := ⟨h'.1, Nat.two_pos, h'.2⟩
  rw [Ideal.hostReduceAdd_single h' h]
  refine congrArg (init + ·) (Finset.sum_congr rfl fun k _ => congrArg x ?_)
  funext d
  apply Fin.ext
  match d with
  | ⟨0, _⟩ => rfl
  | ⟨1, _⟩ => rfl
  | ⟨2, _⟩ => rfl

/-- The indices `(p, k, v)` of row `p`, as an embedding of the pairs `(k, v)`. -/
def rowEmb {a b c : ℕ} (p : Fin a) : Fin b × Fin c ↪ (⟨3, ![a, b, c]⟩ : Shape).Idx :=
  ⟨fun kv => ix3 p kv.1 kv.2, fun kv kv' e => by
    have e1 : kv.1 = kv'.1 := congrFun e 1
    have e2 : kv.2 = kv'.2 := congrFun e 2
    exact Prod.ext e1 e2⟩

/-- The host's float sum over the last two axes of an `[a, b, c]` array, read at `p`: the initial value plus the
    double sum over `(k, v)` of the entry `(p, k, v)`. -/
theorem hostSum12_apply {a b c : ℕ} (h' : (⟨3, ![a, b, c]⟩ : Shape).ReducesTo [1, 2] ⟨1, ![a]⟩)
    (x : (⟨3, ![a, b, c]⟩ : Shape).Idx → EReal) (init : EReal) (p : Fin a) :
    Ideal.hostReduceAdd h' x init (ix1 p) = init + ∑ k : Fin b, ∑ v : Fin c, x (ix3 p k v) := by
  unfold Ideal.hostReduceAdd
  have hset : (Finset.univ.filter fun i : (⟨3, ![a, b, c]⟩ : Shape).Idx => h'.drop i = ix1 p)
      = Finset.univ.map (rowEmb (b := b) (c := c) p) := by
    ext i
    simp only [Finset.mem_filter, Finset.mem_univ, true_and, Finset.mem_map, rowEmb, Function.Embedding.coeFn_mk]
    constructor
    · intro hi
      have e : (h'.drop i 0).val = (i 0).val :=
        Shape.ReducesTo.drop_apply_val_of_eq h' i 0 0 (show 0 < 1 from Nat.one_pos) rfl
      have h0 : (i 0).val = p.val := e.symm.trans (congrArg (fun j : (⟨1, ![a]⟩ : Shape).Idx => (j 0).val) hi)
      refine ⟨((i 1 : Fin b), (i 2 : Fin c)), ?_⟩
      funext d
      apply Fin.ext
      match d with
      | ⟨0, _⟩ => exact h0.symm
      | ⟨1, _⟩ => rfl
      | ⟨2, _⟩ => rfl
    · rintro ⟨kv, rfl⟩
      funext d
      apply Fin.ext
      match d with
      | ⟨0, _⟩ => exact Shape.ReducesTo.drop_apply_val_of_eq h' _ 0 0 (show 0 < 1 from Nat.one_pos) rfl
  rw [hset, Finset.sum_map, Fintype.sum_prod_type]
  rfl

end Cert.LibRank3Sums
-- ==== Proof.LibRank3Broadcast.lean ====
/-
  Rank-3 broadcasts along unit axes, and the shape casts that insert those unit axes, read by coordinates.

  A broadcast to a larger shape repeats the operand along each of its axes of extent one: the result at (p, q, k)
  is the operand at the same coordinates with 0 on the repeated axes. A reshape keeps the row-major order, and an
  axis of extent one adds nothing to an entry's position, so inserting unit axes keeps the other coordinates.
  General in the extents.
-/
import Idealize.ShloMosaic.Lib.Pipeline.Value
import Idealize.ShloMosaic.Lib.ValueIdx

namespace Cert.LibRank3Broadcast

open Idealize.ShloMosaic Idealize.ShloMosaic.ValueIdx

variable {α : Type}

/-- An `[a, 1, c]` array broadcast to `[a, b, c]` reads, at `(p, q, k)`, the operand at `(p, 0, k)`. -/
theorem broadcastTo_a1c_abc_apply {a b c : ℕ} (v : (⟨3, ![a, 1, c]⟩ : Shape).Idx → α)
    (h : (⟨3, ![a, 1, c]⟩ : Shape).Broadcasts ⟨3, ![a, b, c]⟩) (p : Fin a) (q : Fin b) (k : Fin c) :
    broadcastTo ⟨3, ![a, b, c]⟩ v h (ix3 p q k) = v (ix3 p (0 : Fin 1) k) := by
  refine broadcastTo_apply v h (ix3 p q k) (ix3 p (0 : Fin 1) k) fun ax => ?_
  match ax with
  | ⟨0, _⟩ =>
    show p.val = if a = 1 then 0 else p.val
    split
    · have := p.isLt; omega
    · rfl
  | ⟨1, _⟩ => rfl
  | ⟨2, _⟩ =>
    show k.val = if c = 1 then 0 else k.val
    split
    · have := k.isLt; omega
    · rfl

/-- A `[1, b, c]` array broadcast to `[a, b, c]` reads, at `(p, q, k)`, the operand at `(0, q, k)`. -/
theorem broadcastTo_1bc_abc_apply {a b c : ℕ} (v : (⟨3, ![1, b, c]⟩ : Shape).Idx → α)
    (h : (⟨3, ![1, b, c]⟩ : Shape).Broadcasts ⟨3, ![a, b, c]⟩) (p : Fin a) (q : Fin b) (k : Fin c) :
    broadcastTo ⟨3, ![a, b, c]⟩ v h (ix3 p q k) = v (ix3 (0 : Fin 1) q k) := by
  refine broadcastTo_apply v h (ix3 p q k) (ix3 (0 : Fin 1) q k) fun ax => ?_
  match ax with
  | ⟨0, _⟩ => rfl
  | ⟨1, _⟩ =>
    show q.val = if b = 1 then 0 else q.val
    split
    · have := q.isLt; omega
    · rfl
  | ⟨2, _⟩ =>
    show k.val = if c = 1 then 0 else k.val
    split
    · have := k.isLt; omega
    · rfl

/-- A `[1, 1, c]` array broadcast to `[a, b, c]` reads, at `(p, q, k)`, the operand at `(0, 0, k)`. -/
theorem broadcastTo_11c_abc_apply {a b c : ℕ} (v : (⟨3, ![1, 1, c]⟩ : Shape).Idx → α)
    (h : (⟨3, ![1, 1, c]⟩ : Shape).Broadcasts ⟨3, ![a, b, c]⟩) (p : Fin a) (q : Fin b) (k : Fin c) :
    broadcastTo ⟨3, ![a, b, c]⟩ v h (ix3 p q k) = v (ix3 (0 : Fin 1) (0 : Fin 1) k) := by
  refine broadcastTo_apply v h (ix3 p q k) (ix3 (0 : Fin 1) (0 : Fin 1) k) fun ax => ?_
  match ax with
  | ⟨0, _⟩ => rfl
  | ⟨1, _⟩ => rfl
  | ⟨2, _⟩ =>
    show k.val = if c = 1 then 0 else k.val
    split
    · have := k.isLt; omega
    · rfl

/-- An `[a, c]` array cast to `[a, 1, c]` reads, at `(p, u, k)`, the operand at `(p, k)`: both sit at row-major
    position `p · c + k`. -/
theorem shapeCast_ac_a1c_apply {a c : ℕ} (x : (⟨2, ![a, c]⟩ : Shape).Idx → α)
    (h : (⟨2, ![a, c]⟩ : Shape).ShapeCasts ⟨3, ![a, 1, c]⟩) (p : Fin a) (u : Fin 1) (k : Fin c) :
    shapeCast ⟨3, ![a, 1, c]⟩ x h (ix3 p u k) = x (ix2 p k) :=
  shapeCast_apply x h _ _ (by
    have hu : u.val = 0 := by omega
    rw [Shape.rowMajor_val_two, Shape.rowMajor_val_three]
    show p.val * c + k.val = (p.val * 1 + u.val) * c + k.val
    rw [hu, Nat.mul_one, Nat.add_zero])

/-- A `[c]` array cast to `[1, 1, c]` reads, at `(u, v, k)`, the operand at `k`. -/
theorem shapeCast_c_11c_apply {c : ℕ} (x : (⟨1, ![c]⟩ : Shape).Idx → α)
    (h : (⟨1, ![c]⟩ : Shape).ShapeCasts ⟨3, ![1, 1, c]⟩) (u v : Fin 1) (k : Fin c) :
    shapeCast ⟨3, ![1, 1, c]⟩ x h (ix3 u v k) = x (ix1 k) :=
  shapeCast_apply x h _ _ (by
    have hu : u.val = 0 := by omega
    have hv : v.val = 0 := by omega
    rw [Shape.rowMajor_val_one, Shape.rowMajor_val_three]
    show k.val = (u.val * 1 + v.val) * c + k.val
    rw [hu, hv]
    simp)

end Cert.LibRank3Broadcast
-- ==== Proof.LibGroups.lean ====
/-
  A matrix whose columns are cut into equal groups, read by coordinates.

  An `[a, n]` matrix with `n = b · c` columns viewed as `[a, b, c]` keeps its row-major order, so column
  `g · c + l` of row `p` is entry `(p, g, l)` of the grouped view, in both directions. A per-group quantity is a
  `[a, b]` matrix; giving it a trailing axis of extent one changes no position, and broadcasting that axis over the
  `c` members of a group reads, at `(p, g, l)`, the group's one entry `(p, g, 0)`. General in the extents.
-/
import Idealize.ShloMosaic.Lib.Pipeline.Value
import Idealize.ShloMosaic.Lib.ValueIdx

namespace Cert.LibGroups

open Idealize.ShloMosaic Idealize.ShloMosaic.ValueIdx

variable {α : Type}

/-- An `[a, n]` matrix cast to `[a, b, c]` reads, at `(p, g, l)`, the operand at `(p, col)` with
    `col = g · c + l`: both have row-major position `p · n + col` when `n = b · c`. -/
theorem shapeCast_an_abc_apply {a b c n : ℕ} (hn : n = b * c) (X : (⟨2, ![a, n]⟩ : Shape).Idx → α)
    (h : (⟨2, ![a, n]⟩ : Shape).ShapeCasts ⟨3, ![a, b, c]⟩) (p : Fin a) (g : Fin b) (l : Fin c) (col : Fin n)
    (hcol : col.val = g.val * c + l.val) : shapeCast ⟨3, ![a, b, c]⟩ X h (ix3 p g l) = X (ix2 p col) :=
  shapeCast_apply X h _ _ (by
    rw [Shape.rowMajor_val_two, Shape.rowMajor_val_three]
    show p.val * n + col.val = (p.val * b + g.val) * c + l.val
    rw [hcol, hn, Nat.add_mul, Nat.mul_assoc, Nat.add_assoc])

/-- An `[a, b, c]` array cast to `[a, n]` reads, at `(p, col)` with `col = g · c + l`, the operand at `(p, g, l)`. -/
theorem shapeCast_abc_an_apply {a b c n : ℕ} (hn : n = b * c) (Y : (⟨3, ![a, b, c]⟩ : Shape).Idx → α)
    (h : (⟨3, ![a, b, c]⟩ : Shape).ShapeCasts ⟨2, ![a, n]⟩) (p : Fin a) (g : Fin b) (l : Fin c) (col : Fin n)
    (hcol : col.val = g.val * c + l.val) : shapeCast ⟨2, ![a, n]⟩ Y h (ix2 p col) = Y (ix3 p g l) :=
  shapeCast_apply Y h _ _ (by
    rw [Shape.rowMajor_val_three, Shape.rowMajor_val_two]
    show (p.val * b + g.val) * c + l.val = p.val * n + col.val
    rw [hcol, hn, Nat.add_mul, Nat.mul_assoc, Nat.add_assoc])

/-- An `[a, b]` matrix cast to `[a, b, 1]` reads, at `(p, g, u)`, the operand at `(p, g)`: a trailing axis of
    extent one adds nothing to the row-major position. -/
theorem shapeCast_ab_ab1_apply {a b : ℕ} (X : (⟨2, ![a, b]⟩ : Shape).Idx → α)
    (h : (⟨2, ![a, b]⟩ : Shape).ShapeCasts ⟨3, ![a, b, 1]⟩) (p : Fin a) (g : Fin b) (u : Fin 1) :
    shapeCast ⟨3, ![a, b, 1]⟩ X h (ix3 p g u) = X (ix2 p g) :=
  shapeCast_apply X h _ _ (by
    have hu : u.val = 0 := by omega
    rw [Shape.rowMajor_val_two, Shape.rowMajor_val_three]
    show p.val * b + g.val = (p.val * b + g.val) * 1 + u.val
    rw [hu, Nat.mul_one, Nat.add_zero])

/-- An `[a, b, 1]` array broadcast along its unit axis to `[a, b, c]` reads, at `(p, g, l)`, the one entry
    `(p, g, 0)` of group `g` in row `p`. -/
theorem broadcastTo_ab1_abc_apply {a b c : ℕ} (v : (⟨3, ![a, b, 1]⟩ : Shape).Idx → α)
    (h : (⟨3, ![a, b, 1]⟩ : Shape).Broadcasts ⟨3, ![a, b, c]⟩) (p : Fin a) (g : Fin b) (l : Fin c) :
    broadcastTo ⟨3, ![a, b, c]⟩ v h (ix3 p g l) = v (ix3 p g (0 : Fin 1)) := by
  refine broadcastTo_apply v h (ix3 p g l) (ix3 p g (0 : Fin 1)) fun ax => ?_
  match ax with
  | ⟨0, _⟩ =>
    show p.val = if a = 1 then 0 else p.val
    split
    · have := p.isLt; omega
    · rfl
  | ⟨1, _⟩ =>
    show g.val = if b = 1 then 0 else g.val
    split
    · have := g.isLt; omega
    · rfl
  | ⟨2, _⟩ => rfl

end Cert.LibGroups
-- ==== Proof.KernContribValue.lean ====
/-
  One grid point's contribution to the counts, read at an index.

  Column k of the contribution is the lane sum, over the block's 2048 positions, of (the bit "the bin word is k",
  as a float) times (the weight).  The bit as a float is 1 or 0, the weight is the product of the two padding bits as
  floats, again 1 or 0; so each term is the weight where the bin word is k and 0 elsewhere — the specification's term.
  The thirty columns are thirty such sums laid side by side along the bin axis, each of extent one there, so column k
  of the concatenation is the k-th piece.
-/
import proofs.«101253_j5222680232145_1_alg».proof.Proof.KernContrib
import proofs.«101253_j5222680232145_1_alg».proof.Proof.HistSpec
import proofs.«101253_j5222680232145_1_alg».proof.Proof.LibRank3Sums
import proofs.«101253_j5222680232145_1_alg».proof.Proof.LibRank3Broadcast
import proofs.«101253_j5222680232145_1_alg».proof.Proof.LibGroups
import Idealize.ShloMosaic.Lib.Pipeline.Value
import Idealize.ShloMosaic.Lib.ValueIdx
import Idealize.ShloMosaic.PureOps.Ideal.Laws

noncomputable section

open scoped BigOperators

namespace Cert.Hist.Kern

open Idealize.ShloMosaic Idealize.ShloMosaic.ValueIdx Cert.KernelIdeal Cert.KernelIdeal.Gen

/-! ## A comparison bit as a float -/

/-- A one-bit word widened to 32 bits and converted to a float is 1 where the bit is set, else 0. -/
theorem bit_float (c : Bool) :
    FloatOps.sitofp (F := Ideal) .f32 ((BitVec.ofBool c).setWidth 32) = if c then (1 : EReal) else 0 := by
  cases c
  · show (((((BitVec.ofBool false).setWidth 32).toInt : ℤ) : ℝ) : EReal) = 0
    have e : ((BitVec.ofBool false).setWidth 32).toInt = 0 := by decide
    rw [e]; simp
  · show (((((BitVec.ofBool true).setWidth 32).toInt : ℤ) : ℝ) : EReal) = 1
    have e : ((BitVec.ofBool true).setWidth 32).toInt = 1 := by decide
    rw [e]; simp

/-- The bit "two words are equal", as a float. -/
theorem eq_float (w k : BitVec 32) :
    FloatOps.sitofp (F := Ideal) .f32 ((IntOp.cmpi .eq w k).setWidth 32) = if w = k then (1 : EReal) else 0 := by
  show FloatOps.sitofp (F := Ideal) .f32 ((BitVec.ofBool (w == k)).setWidth 32) = _
  rw [bit_float]
  by_cases h : w = k
  · simp [h]
  · simp [h]

/-- The bit "two words differ", as a float. -/
theorem ne_float (w k : BitVec 32) :
    FloatOps.sitofp (F := Ideal) .f32 ((IntOp.cmpi .ne w k).setWidth 32) = if w ≠ k then (1 : EReal) else 0 := by
  show FloatOps.sitofp (F := Ideal) .f32 ((BitVec.ofBool (w != k)).setWidth 32) = _
  rw [bit_float]
  by_cases h : w = k
  · simp [h]
  · simp [h]

/-! ## The bin words and the weights of a block, at an index -/

/-- The bin word at a position is the specification's bin of the similarity there. -/
theorem binsOf_apply (v3 : Vec Ideal S16x32x2048 .f32) (i : S16x32x2048.Idx) :
    binsOf (F := Ideal) v3 i = Cert.Hist.bin (v3 i) := rfl

/-- The weight at (row, query, position) is the specification's weight of the document token at (row, position) and
    the query token at (row, query). -/
theorem weightsOf_apply (v4 : Vec Ideal S16x2048 .i32) (v5 : Vec Ideal S16x32 .i32) (b : Fin 16) (q : Fin 32)
    (d : Fin 2048) :
    weightsOf (F := Ideal) v4 v5 (ix3 b q d) = Cert.Hist.weight (v4 (ix2 b d)) (v5 (ix2 b q)) := by
  unfold weightsOf k0_pay7
  rw [mulf_apply, Cert.LibRank3Broadcast.broadcastTo_a1c_abc_apply, Cert.LibGroups.broadcastTo_ab1_abc_apply,
    Cert.LibRank3Broadcast.shapeCast_ac_a1c_apply, Cert.LibGroups.shapeCast_ab_ab1_apply]
  show FloatOps.sitofp (F := Ideal) .f32 ((IntOp.cmpi .ne (v4 (ix2 b d)) 0#32).setWidth 32)
      * FloatOps.sitofp (F := Ideal) .f32 ((IntOp.cmpi .ne (v5 (ix2 b q)) 0#32).setWidth 32) = _
  rw [ne_float, ne_float]
  unfold Cert.Hist.weight
  by_cases h1 : v4 (ix2 b d) = 0#32 <;> by_cases h2 : v5 (ix2 b q) = 0#32 <;> simp [h1, h2]

/-! ## One bin's column -/

variable {F : FTy → Type} [FloatOps F]

/-- Bin `kw`'s masked lane sum, as a column. -/
def piece (kw : BitVec 32) (v12 : IVec S16x32x2048 32) (v25 : FVec F S16x32x2048 .f32) : FVec F S16x32x1 .f32 :=
  shapeCast S16x32x1
    (multiReduction .add [2] S16x32
      (mulf (sitofp .f32 (extui 32 (cmpi .eq v12 (broadcast S16x32x2048 kw)) natLt_1_32)) v25)
      0x00000000#32 reduces_S16x32x2048_S16x32 (.inl rfl) rfl)
    shapeCasts_S16x32_S16x32x1

/-- The thirty columns, by bin. -/
def pieceAt (v12 : IVec S16x32x2048 32) (v25 : FVec F S16x32x2048 .f32) (n : Fin 30) : FVec F S16x32x1 .f32 :=
  piece (BitVec.ofNat 32 n.val) v12 v25

/-- The contribution is the thirty columns side by side. -/
theorem contrib_eq_concat (v3 : Vec F S16x32x2048 .f32) (v4 : Vec F S16x2048 .i32) (v5 : Vec F S16x32 .i32)
    (h : Shape.Concatenates ((List.ofFn fun n : Fin 30 =>
      (⟨S16x32x1, pieceAt (binsOf v3) (weightsOf v4 v5) n⟩ : (s : Shape) × (s.Idx → F .f32))).map (·.1)) S16x32x30 2) :
    contrib v3 v4 v5 = concatenate S16x32x30 2 (List.ofFn fun n : Fin 30 =>
      (⟨S16x32x1, pieceAt (binsOf v3) (weightsOf v4 v5) n⟩ : (s : Shape) × (s.Idx → F .f32))) h := rfl

/-- A column at (row, query): the sum over the positions of the weight where the bin word is `kw`. -/
theorem piece_apply (kw : BitVec 32) (v3 : Vec Ideal S16x32x2048 .f32) (v4 : Vec Ideal S16x2048 .i32)
    (v5 : Vec Ideal S16x32 .i32) (b : Fin 16) (q : Fin 32) (u : Fin 1) :
    piece (F := Ideal) kw (binsOf v3) (weightsOf v4 v5) (ix3 b q u)
      = ∑ d : Fin 2048, Cert.Hist.term (v3 (ix3 b q d)) (v4 (ix2 b d)) (v5 (ix2 b q)) kw := by
  unfold piece
  rw [Cert.LibGroups.shapeCast_ab_ab1_apply]
  refine (Cert.LibRank3Sums.laneSum3_apply _ _ _ _ b q).trans ?_
  refine Finset.sum_congr rfl fun d _ => ?_
  rw [mulf_apply, weightsOf_apply]
  show FloatOps.sitofp (F := Ideal) .f32 ((IntOp.cmpi .eq (binsOf (F := Ideal) v3 (ix3 b q d)) kw).setWidth 32) * _ = _
  rw [eq_float, binsOf_apply]
  unfold Cert.Hist.term
  by_cases h : Cert.Hist.bin (v3 (ix3 b q d)) = kw <;> simp [h]

/-- THE CONTRIBUTION AT AN INDEX: column k at (row, query) is the block's count of bin k. -/
theorem contrib_apply (v3 : Vec Ideal S16x32x2048 .f32) (v4 : Vec Ideal S16x2048 .i32) (v5 : Vec Ideal S16x32 .i32)
    (b : Fin 16) (q : Fin 32) (k : Fin 30) :
    contrib (F := Ideal) v3 v4 v5 (ix3 b q k)
      = ∑ d : Fin 2048, Cert.Hist.term (v3 (ix3 b q d)) (v4 (ix2 b d)) (v5 (ix2 b q)) (BitVec.ofNat 32 k.val) := by
  have h0 : Shape.Concatenates (List.replicate 30 S16x32x1) S16x32x30 2 := by decide
  have h : Shape.Concatenates ((List.ofFn fun n : Fin 30 =>
      (⟨S16x32x1, pieceAt (F := Ideal) (binsOf v3) (weightsOf v4 v5) n⟩ : (s : Shape) × (s.Idx → Ideal .f32))).map (·.1))
      S16x32x30 2 := h0
  rw [contrib_eq_concat v3 v4 v5 h]
  have hcol := concatenate_ofFn_unit_apply (t := S16x32x30) (s₁ := S16x32x1) (α := Ideal .f32) (2 : Fin 3) (N := 30)
    (fun n : Fin 30 => pieceAt (F := Ideal) (binsOf v3) (weightsOf v4 v5) n) h rfl rfl
    (ix3 b q k) k rfl (ix3 b q (0 : Fin 1))
    (fun a ha => by
      match a with
      | ⟨0, _⟩ => rfl
      | ⟨1, _⟩ => rfl
      | ⟨2, _⟩ => exact absurd rfl ha)
  exact hcol.trans (piece_apply _ v3 v4 v5 b q 0)

end Cert.Hist.Kern

end
-- ==== Proof.LibBlockedSum.lean ====
/-
  Sums cut into consecutive blocks, for any extents: what a matrix product accumulated block by block along
  its contraction axis adds up to.

  * `sum_blocks`: a sum over `Fin (n * b)` is the sum over `n` consecutive blocks of `b` consecutive terms,
    block `p` holding the positions `p * b + q`, `q < b`. In any commutative additive monoid — so also on the
    extended reals, where it needs no finiteness: only commutativity and associativity of `+` are used.
  * `accum_eq_sum`: an accumulator that starts at zero and adds one summand per step holds, after `n` steps,
    the sum of the first `n` summands.
  * `accum_blocks`: the two together — accumulating the `n` block sums from zero gives the whole sum.
-/
import Mathlib.Algebra.BigOperators.Fin
import Mathlib.Algebra.BigOperators.Intervals
import Mathlib.Logic.Equiv.Fin.Basic

namespace Cert.LibBlockedSum

open Finset

variable {M : Type*} [AddCommMonoid M]

/-- A sum over `Fin (n * b)` cut into `n` consecutive blocks of `b`: position `p * b + q` is term `q` of block `p`. -/
theorem sum_blocks (n b : ℕ) (f : ℕ → M) :
    ∑ k : Fin (n * b), f k.val = ∑ p : Fin n, ∑ q : Fin b, f (p.val * b + q.val) := by
  rw [← Fintype.sum_prod_type' (f := fun (p : Fin n) (q : Fin b) => f (p.val * b + q.val))]
  refine (Fintype.sum_equiv finProdFinEquiv _ _ (fun x => ?_)).symm
  obtain ⟨p, q⟩ := x
  show f (p.val * b + q.val) = f ((finProdFinEquiv (p, q)).val)
  congr 1
  simp [finProdFinEquiv, Nat.mul_comm, Nat.add_comm]

/-- The accumulator after `j` steps: zero, then one summand added per step. -/
def accum (s : ℕ → M) : ℕ → M
  | 0 => 0
  | j + 1 => accum s j + s j

/-- After `n` steps the accumulator holds the sum of the first `n` summands. -/
theorem accum_eq_sum (s : ℕ → M) (n : ℕ) : accum s n = ∑ j ∈ range n, s j := by
  induction n with
  | zero => simp [accum]
  | succ n ih => rw [accum, ih, Finset.sum_range_succ]

/-- Accumulating the `n` block sums of a sum over `Fin (n * b)` from zero gives the whole sum. -/
theorem accum_blocks (n b : ℕ) (f : ℕ → M) :
    accum (fun p => ∑ q : Fin b, f (p * b + q.val)) n = ∑ k : Fin (n * b), f k.val := by
  rw [accum_eq_sum, sum_blocks, Finset.sum_range]

end Cert.LibBlockedSum
-- ==== Proof.KernBlocks.lean ====
/-
  From a grid point's blocks to the argument arrays, and from the four points of a row block's run to the count.

  At grid position t the three input blocks are read off the argument arrays at rows 16 (t / 4) + b and, for the
  similarity and document-token arrays, positions 2048 (t % 4) + d.  So the contribution of the point at (b, q, k) is the
  sum of the specification's terms of row 16 (t / 4) + b over the 2048 positions of position block t % 4, and the four
  points of a run together sum the terms over all 8192 positions: the specification's count.  The extended reals are a
  commutative additive monoid, so the sum over 8192 positions splits into four blocks of 2048 without any finiteness.
-/
import proofs.«101253_j5222680232145_1_alg».proof.Proof.KernFold
import proofs.«101253_j5222680232145_1_alg».proof.Proof.KernContribValue
import proofs.«101253_j5222680232145_1_alg».proof.Proof.HistSpec
import proofs.«101253_j5222680232145_1_alg».proof.Proof.LibBlockedSum

noncomputable section

namespace Cert.Hist.Kern

open Idealize.ShloMosaic Idealize.ShloMosaic.TcCoe Idealize.SL.Sem Idealize.ShloMosaic.Tactic
open Cert.KernelIdeal Cert.KernelIdeal.Gen
open Idealize.ShloMosaic.Pipeline (Dat)
open scoped BigOperators
open Idealize.ShloMosaic.ValueIdx

variable (m : (ℓ : Loc nD τ sig) → Buf (Elt Ideal) ℓ)

/-- The windows' block indices at grid position `t`: the row block is `t / 4`, the position block `t % 4`. -/
theorem idx_facts : ∀ t : Fin cfg0.N,
    win0_0.index t (0 : Fin 3) = t.val / 4 ∧ win0_0.index t (1 : Fin 3) = 0 ∧ win0_0.index t (2 : Fin 3) = t.val % 4
    ∧ win0_1.index t (0 : Fin 2) = t.val / 4 ∧ win0_1.index t (1 : Fin 2) = t.val % 4
    ∧ win0_2.index t (0 : Fin 2) = t.val / 4 ∧ win0_2.index t (1 : Fin 2) = 0
    ∧ win0_3.index t (0 : Fin 3) = t.val / 4 ∧ win0_3.index t (1 : Fin 3) = 0 ∧ win0_3.index t (2 : Fin 3) = 0 :=
  (by decide +kernel : ∀ t : Fin grid0.N, _)

/-- The similarity block at position `t` reads the array at rows `16 (t / 4) + b`, positions `2048 (t % 4) + d`. -/
theorem blk0_apply (c : Dev nD) (t : Fin cfg0.N) (b : Fin 16) (q : Fin 32) (d : Fin 2048) (i : S128x32x8192.Idx)
    (h0 : (i 0).val = 16 * (t.val / 4) + b.val) (h1 : (i 1).val = q.val) (h2 : (i 2).val = 2048 * (t.val % 4) + d.val) :
    (iblk m c 0 t : Vec Ideal S16x32x2048 .f32) (ix3 b q d) = m ((c : Thread nD τ).loc main_arg0) i := by
  obtain ⟨e0, e1, e2, -⟩ := idx_facts t
  unfold iblk
  rw [View.read_apply]
  show V m c main_arg0 _ = m ((c : Thread nD τ).loc main_arg0) _
  unfold V
  congr 1
  funext a
  apply Fin.ext
  match a with
  | ⟨0, _⟩ => show win0_0.index t (0 : Fin 3) * 16 + 1 * b.val = (i 0).val; rw [e0, h0]; omega
  | ⟨1, _⟩ => show win0_0.index t (1 : Fin 3) * 32 + 1 * q.val = (i 1).val; rw [e1, h1]; omega
  | ⟨2, _⟩ => show win0_0.index t (2 : Fin 3) * 2048 + 1 * d.val = (i 2).val; rw [e2, h2]; omega

/-- The document-token block reads rows `16 (t / 4) + b`, positions `2048 (t % 4) + d`. -/
theorem blk1_apply (c : Dev nD) (t : Fin cfg0.N) (b : Fin 16) (d : Fin 2048) (i : S128x8192.Idx)
    (h0 : (i 0).val = 16 * (t.val / 4) + b.val) (h1 : (i 1).val = 2048 * (t.val % 4) + d.val) :
    (iblk m c 1 t : Vec Ideal S16x2048 .i32) (ix2 b d) = m ((c : Thread nD τ).loc main_arg1) i := by
  obtain ⟨-, -, -, e0, e1, -⟩ := idx_facts t
  unfold iblk
  rw [View.read_apply]
  show V m c main_arg1 _ = m ((c : Thread nD τ).loc main_arg1) _
  unfold V
  congr 1
  funext a
  apply Fin.ext
  match a with
  | ⟨0, _⟩ => show win0_1.index t (0 : Fin 2) * 16 + 1 * b.val = (i 0).val; rw [e0, h0]; omega
  | ⟨1, _⟩ => show win0_1.index t (1 : Fin 2) * 2048 + 1 * d.val = (i 1).val; rw [e1, h1]; omega

/-- The query-token block reads rows `16 (t / 4) + b`. -/
theorem blk2_apply (c : Dev nD) (t : Fin cfg0.N) (b : Fin 16) (q : Fin 32) (i : S128x32.Idx)
    (h0 : (i 0).val = 16 * (t.val / 4) + b.val) (h1 : (i 1).val = q.val) :
    (iblk m c 2 t : Vec Ideal S16x32 .i32) (ix2 b q) = m ((c : Thread nD τ).loc main_arg2) i := by
  obtain ⟨-, -, -, -, -, e0, e1, -⟩ := idx_facts t
  unfold iblk
  rw [View.read_apply]
  show V m c main_arg2 _ = m ((c : Thread nD τ).loc main_arg2) _
  unfold V
  congr 1
  funext a
  apply Fin.ext
  match a with
  | ⟨0, _⟩ => show win0_2.index t (0 : Fin 2) * 16 + 1 * b.val = (i 0).val; rw [e0, h0]; omega
  | ⟨1, _⟩ => show win0_2.index t (1 : Fin 2) * 32 + 1 * q.val = (i 1).val; rw [e1, h1]; omega

/-- One term of the count of row `r`, query `q`, bin `k` at the natural position `x` (zero past the last position, where
    it is never used). -/
def posTerm (c : Dev nD) (r : Fin 128) (q : Fin 32) (k : Fin 30) (x : ℕ) : EReal :=
  if h : x < 8192 then
    Cert.Hist.term (m ((c : Thread nD τ).loc main_arg0) (ix3 r q (⟨x, h⟩ : Fin 8192))) (m ((c : Thread nD τ).loc main_arg1) (ix2 r (⟨x, h⟩ : Fin 8192)))
      (m ((c : Thread nD τ).loc main_arg2) (ix2 r q)) (BitVec.ofNat 32 k.val)
  else 0

/-- The count of the specification is the sum of these terms over the 4 · 2048 positions. -/
theorem count_eq_sum (c : Dev nD) (r : Fin 128) (q : Fin 32) (k : Fin 30) :
    Cert.Hist.count (m ((c : Thread nD τ).loc main_arg0)) (m ((c : Thread nD τ).loc main_arg1)) (m ((c : Thread nD τ).loc main_arg2)) r q k = ∑ x : Fin (4 * 2048), posTerm m c r q k x.val := by
  unfold Cert.Hist.count
  show ∑ x : Fin 8192, _ = ∑ x : Fin 8192, posTerm m c r q k x.val
  refine Finset.sum_congr rfl (fun x _ => ?_)
  unfold posTerm
  rw [dif_pos x.isLt]

/-- What the point at grid position `n` (row block `n / 4`, position block `p = n % 4`) adds at (b, q, k): the terms of
    row `16 (n / 4) + b` at the 2048 positions of block `p`. -/
theorem addend_apply (c : Dev nD) (n : ℕ) (hb : n < cfg0.N) (b : Fin 16) (q : Fin 32) (k : Fin 30) (r : Fin 128) (p : ℕ)
    (hp : n % 4 = p) (hr : r.val = 16 * (n / 4) + b.val) :
    addend m c n (ix3 b q k) = ∑ d : Fin 2048, posTerm m c r q k (p * 2048 + d.val) := by
  have hN : n < 32 := lt_of_lt_of_eq hb (show cfg0.N = 32 from N_0)
  refine (addend_of_lt m c n hb (ix3 b q k)).trans ?_
  refine (contrib_apply (iblk m c 0 (⟨n, hb⟩ : Fin cfg0.N)) (iblk m c 1 (⟨n, hb⟩ : Fin cfg0.N)) (iblk m c 2 (⟨n, hb⟩ : Fin cfg0.N)) b q k).trans ?_
  refine Finset.sum_congr rfl (fun d _ => ?_)
  have hd : d.val < 2048 := d.isLt
  have hx : p * 2048 + d.val < 8192 := by omega
  unfold posTerm
  rw [dif_pos hx]
  rw [blk0_apply m c (⟨n, hb⟩ : Fin cfg0.N) b q d (ix3 r q (⟨p * 2048 + d.val, hx⟩ : Fin 8192)) hr rfl (by show p * 2048 + d.val = 2048 * (n % 4) + d.val; omega),
    blk1_apply m c (⟨n, hb⟩ : Fin cfg0.N) b d (ix2 r (⟨p * 2048 + d.val, hx⟩ : Fin 8192)) hr (by show p * 2048 + d.val = 2048 * (n % 4) + d.val; omega),
    blk2_apply m c (⟨n, hb⟩ : Fin cfg0.N) b q (ix2 r q) hr rfl]

/-- After the last point of a row block's run the scratch holds, at (b, q, k), the specification's count of row
    `16 (t / 4) + b`: the four points' 2048-position sums make the sum over all 8192 positions. -/
theorem run_sum (c : Dev nD) (t : Fin cfg0.N) (h3 : t.val % 4 = 3) (b : Fin 16) (q : Fin 32) (k : Fin 30) (r : Fin 128)
    (hr : r.val = 16 * (t.val / 4) + b.val) :
    (outsAt0 m c t.val t.isLt).2 (ix3 b q k) = Cert.Hist.count (m ((c : Thread nD τ).loc main_arg0)) (m ((c : Thread nD τ).loc main_arg1)) (m ((c : Thread nD τ).loc main_arg2)) r q k := by
  have hN : t.val < 32 := lt_of_lt_of_eq t.isLt (show cfg0.N = 32 from N_0)
  have e : t.val % 4 + 1 = 4 := by omega
  rw [scratch_apply m c t (ix3 b q k), e, zero_add, count_eq_sum, Cert.LibBlockedSum.sum_blocks 4 2048, Finset.sum_range]
  refine Finset.sum_congr rfl (fun s _ => ?_)
  have hs : s.val < 4 := s.isLt
  have hlt : 4 * (t.val / 4) + s.val < cfg0.N := lt_of_lt_of_eq (by omega : 4 * (t.val / 4) + s.val < 32) (show cfg0.N = 32 from N_0).symm
  exact addend_apply m c (4 * (t.val / 4) + s.val) hlt b q k r s.val (by omega) (by omega)

end Cert.Hist.Kern

end
-- ==== Proof.KernValue.lean ====
/-
  The program's run, read: its result array is the weighted histogram's log-counts of the argument arrays.

  Only the last point of each row block's run of four grid points writes the output block back, and what it writes is
  log (counts + ε) of the scratch it leaves, which by then holds the specification's counts of the block's sixteen rows.
  The eight written blocks tile the result array (rows 16 j … 16 j + 15 by the point 4 j + 3), so the array ends at the
  specification's result, index by index.
-/
import proofs.«101253_j5222680232145_1_alg».proof.Proof.KernBlocks

noncomputable section

namespace Cert.Hist.Kern

open Idealize.ShloMosaic Idealize.ShloMosaic.TcCoe Idealize.SL.Sem Idealize.ShloMosaic.Tactic
open Cert.KernelIdeal Cert.KernelIdeal.Gen
open Idealize.ShloMosaic.Pipeline (Dat)
open scoped BigOperators
open Idealize.ShloMosaic.ValueIdx

variable (m : (ℓ : Loc nD τ sig) → Buf (Elt Ideal) ℓ) (ρ : Dev nD → PrngReg)

/-- The stored output at an index: the logarithm of the counts plus ε. -/
theorem pay4_apply (acc : Vec Ideal S16x32x30 .f32) (i : S16x32x30.Idx) :
    k0_pay4 (F := Ideal) acc i = Ideal.log (acc i + Ideal.ofBits .f32 0x3727C5AC#32) := rfl

/-- The output block of the last point of a run at (b, q, k) is the specification's result at row `16 (t / 4) + b`. -/
theorem block_out_ix (c : Dev nD) (t : Fin cfg0.N) (h3 : t.val % 4 = 3) (b : Fin 16) (q : Fin 32) (k : Fin 30) (r : Fin 128)
    (hr : r.val = 16 * (t.val / 4) + b.val) :
    k0_pay4 (F := Ideal) (outsAt0 m c t.val t.isLt).2 (ix3 b q k)
      = Cert.Hist.result (m ((c : Thread nD τ).loc main_arg0)) (m ((c : Thread nD τ).loc main_arg1)) (m ((c : Thread nD τ).loc main_arg2)) (ix3 r q k) := by
  rw [Cert.Hist.result_apply, pay4_apply, run_sum m c t h3 b q k r hr]

/-- The same at a block index `j` and the array index `i` with row `16 (t / 4) + j₀` and the same query and bin. -/
theorem block_out (c : Dev nD) (t : Fin cfg0.N) (h3 : t.val % 4 = 3) (j : S16x32x30.Idx) (i : S128x32x30.Idx)
    (h0 : (i 0).val = 16 * (t.val / 4) + (j 0).val) (h1 : (i 1).val = (j 1).val) (h2 : (i 2).val = (j 2).val) :
    k0_pay4 (F := Ideal) (outsAt0 m c t.val t.isLt).2 j
      = Cert.Hist.result (m ((c : Thread nD τ).loc main_arg0)) (m ((c : Thread nD τ).loc main_arg1)) (m ((c : Thread nD τ).loc main_arg2)) i := by
  have hj : j = ix3 (j 0 : Fin 16) (j 1 : Fin 32) (j 2 : Fin 30) := eq_ix3 j
  have hi : i = ix3 (i 0 : Fin 128) (j 1 : Fin 32) (j 2 : Fin 30) := by
    funext a
    match a with
    | ⟨0, _⟩ => rfl
    | ⟨1, _⟩ => exact Fin.ext h1
    | ⟨2, _⟩ => exact Fin.ext h2
  exact (congrArg (k0_pay4 (F := Ideal) (outsAt0 m c t.val t.isLt).2) hj).trans
    ((block_out_ix m c t h3 (j 0) (j 1) (j 2) (i 0) h0).trans
      (congrArg (Cert.Hist.result (m ((c : Thread nD τ).loc main_arg0)) (m ((c : Thread nD τ).loc main_arg1)) (m ((c : Thread nD τ).loc main_arg2))) hi.symm))

/-- An index of the result array is in point `t`'s block iff each coordinate is in the block's range on its axis. -/
theorem mem_blk (t : Fin cfg0.N) (i : S128x32x30.Idx) :
    i ∈ ((cfg0.win 3).blk t).view.set ↔ ∀ a : Fin 3, win0_3.index t a * S16x32x30.size a ≤ (i a).val ∧ (i a).val < win0_3.index t a * S16x32x30.size a + S16x32x30.size a := by
  show i ∈ ((View.whole main_v0).slice (win0_3.rect t)).set ↔ _
  rw [View.set_slice_whole, Rect.mem_set_unit]
  exact Iff.rfl

/-- WHAT A WRITING POINT WRITES BACK is its block of the specification's result of the argument arrays. -/
theorem flushed_eq (c : Dev nD) (t : Fin cfg0.N) (hf : (cfg0.win 3).flush t = true) :
    (dats m 0 c).flushed 3 t
      = ((cfg0.win 3).blk t).view.read (Elt Ideal) (Cert.Hist.result (m ((c : Thread nD τ).loc main_arg0)) (m ((c : Thread nD τ).loc main_arg1)) (m ((c : Thread nD τ).loc main_arg2))) := by
  have h3 : t.val % 4 = 3 := (flush0_3 t).mp hf
  have h0 : ¬t.val % 4 = 0 := by omega
  obtain ⟨-, -, -, -, -, -, -, e0, e1, e2⟩ := idx_facts t
  rw [Value.flushed3, out_last m c t h0 h3]
  funext j
  rw [View.read_apply]
  refine block_out m c t h3 j (((cfg0.win 3).blk t).view.emb j) ?_ ?_ ?_
  · show win0_3.index t (0 : Fin 3) * 16 + 1 * (j 0).val = 16 * (t.val / 4) + (j 0).val
    rw [e0]; omega
  · show win0_3.index t (1 : Fin 3) * 32 + 1 * (j 1).val = (j 1).val
    rw [e1]; omega
  · show win0_3.index t (2 : Fin 3) * 30 + 1 * (j 2).val = (j 2).val
    rw [e2]; omega

/-- Every index of the result array is in the block of the last point of its row block's run, which is written back. -/
theorem cover (i : S128x32x30.Idx) :
    ∃ t : Fin cfg0.N, (cfg0.win 3).flush t = true ∧ i ∈ ((cfg0.win 3).blk t).view.set := by
  have hi0 : (i 0).val < 128 := (i 0).isLt
  have hi1 : (i 1).val < 32 := (i 1).isLt
  have hi2 : (i 2).val < 30 := (i 2).isLt
  have hlt : 4 * ((i 0).val / 16) + 3 < cfg0.N :=
    lt_of_lt_of_eq (by omega : 4 * ((i 0).val / 16) + 3 < 32) (show cfg0.N = 32 from N_0).symm
  refine ⟨⟨4 * ((i 0).val / 16) + 3, hlt⟩, (flush0_3 _).mpr (by show (4 * ((i 0).val / 16) + 3) % 4 = 3; omega), ?_⟩
  obtain ⟨-, -, -, -, -, -, -, e0, e1, e2⟩ := idx_facts ⟨4 * ((i 0).val / 16) + 3, hlt⟩
  have q0 : win0_3.index ⟨4 * ((i 0).val / 16) + 3, hlt⟩ (0 : Fin 3) = (i 0).val / 16 := by
    rw [e0]; show (4 * ((i 0).val / 16) + 3) / 4 = _; omega
  rw [mem_blk]
  intro a
  match a with
  | ⟨0, _⟩ => show win0_3.index _ (0 : Fin 3) * 16 ≤ (i 0).val ∧ (i 0).val < win0_3.index _ (0 : Fin 3) * 16 + 16; rw [q0]; omega
  | ⟨1, _⟩ => show win0_3.index _ (1 : Fin 3) * 32 ≤ (i 1).val ∧ (i 1).val < win0_3.index _ (1 : Fin 3) * 32 + 32; rw [e1]; omega
  | ⟨2, _⟩ => show win0_3.index _ (2 : Fin 3) * 30 ≤ (i 2).val ∧ (i 2).val < win0_3.index _ (2 : Fin 3) * 30 + 30; rw [e2]; omega

/-- So the result array ends holding the specification's result of the argument arrays. -/
theorem final (c : Dev nD) :
    (dats m 0 c).arrAt 3 cfg0.N = Cert.Hist.result (m ((c : Thread nD τ).loc main_arg0)) (m ((c : Thread nD τ).loc main_arg1)) (m ((c : Thread nD τ).loc main_arg2)) :=
  (dats m 0 c).arrAt_eq_of_cover 3 (Cert.Hist.result (m ((c : Thread nD τ).loc main_arg0)) (m ((c : Thread nD τ).loc main_arg1)) (m ((c : Thread nD τ).loc main_arg2))) (flushed_eq m c) cover

/-- THE RUN, READ: every weakly fair execution of the program ends with the result array at the weighted histogram's
    log-counts of the argument arrays, the arguments unchanged. -/
theorem run : θ_run defs (onTc (τ := τ) (main (F := Ideal))) ⟨m, fun _ => 0, ρ⟩ fun r => ∀ c : Dev nD,
      r.2.mem ((c : Thread nD τ).loc main_v0) = Cert.Hist.result (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (Value.run_blocks m ρ)

end Cert.Hist.Kern

end
-- ==== Proof.lean ====
/-
  The kernel and its reference compute one weighted histogram.

  For a similarity array sim[128, 32, 8192] and token arrays dt[128, 8192], qt[128, 32] both programs return, at
  (b, q, k), log (count + ε), where count is the sum over the 8192 positions d of the weight of (b, q, d) — 1 where
  neither token is the padding token 0 — restricted to the positions whose similarity falls in bin k, the bin of x
  being ((x + c) / 2) · 29 rounded toward zero.

  The kernel walks a grid of 8 × 4 blocks: for each group of 16 rows it zeroes a running count, adds the thirty masked
  lane sums of each of the four position blocks, and writes log (count + ε) after the fourth.  Its result array is
  therefore the specification block by block, the four partial sums of 2048 terms making the sum of 8192.

  The reference adds every weight into a flat array of 128 · 32 · 30 segments at segment (32 b + q) · 30 + bin.  Under
  the precondition every similarity lies in [-1, 1], so every bin lies in 0 … 29, no update leaves its own row's thirty
  segments, and segment (32 b + q) · 30 + k receives exactly the weights of row (b, q) whose bin is k.

  The three programs' frames are the generated ones; the idealized kernel is the kernel's own text read on the
  extended reals, so nothing is owed for that step.
-/
import proofs.«101253_j5222680232145_1_alg».proof.Defs
import proofs.«101253_j5222680232145_1_alg».proof.Proof.Gen.Kernel
import proofs.«101253_j5222680232145_1_alg».proof.Proof.Gen.Kernel.Skeleton
import proofs.«101253_j5222680232145_1_alg».proof.Proof.Gen.Kernel.Launch
import proofs.«101253_j5222680232145_1_alg».proof.Proof.Gen.Kernel.Points
import proofs.«101253_j5222680232145_1_alg».proof.Proof.Gen.Kernel.Frame
import proofs.«101253_j5222680232145_1_alg».proof.Proof.Gen.KernelIdeal
import proofs.«101253_j5222680232145_1_alg».proof.Proof.Gen.KernelIdeal.Skeleton
import proofs.«101253_j5222680232145_1_alg».proof.Proof.Gen.KernelIdeal.Launch
import proofs.«101253_j5222680232145_1_alg».proof.Proof.Gen.KernelIdeal.Points
import proofs.«101253_j5222680232145_1_alg».proof.Proof.Gen.KernelIdeal.Frame
import proofs.«101253_j5222680232145_1_alg».proof.Proof.Gen.ReferenceIdeal
import proofs.«101253_j5222680232145_1_alg».proof.Proof.Gen.Pre_finite_inputs
import proofs.«101253_j5222680232145_1_alg».proof.Proof.Gen.KernelIdeal.Value
import proofs.«101253_j5222680232145_1_alg».proof.Proof.Gen.ReferenceIdeal.Run
import proofs.«101253_j5222680232145_1_alg».proof.Proof.Gen.ReferenceIdeal.Read
import proofs.«101253_j5222680232145_1_alg».proof.Proof.HistPre
import proofs.«101253_j5222680232145_1_alg».proof.Proof.RefValue
import proofs.«101253_j5222680232145_1_alg».proof.Proof.KernValue
import Idealize.ShloMosaic.Adequacy
import Idealize.ShloMosaic.Init

noncomputable section

namespace Cert.Proof

open Idealize.ShloMosaic Idealize.ShloMosaic.TcCoe Idealize.SL.Sem

/-- The kernel as printed runs to the end, faults nowhere, and leaves its arguments as they were. -/
theorem frame_kernel : Cert.frame_Kernel (hKernel := Cert.Kernel.Gen.facts) (hPre_finite_inputs := Cert.Pre_finite_inputs.Gen.facts) :=
  fun m ρ _ => Cert.Kernel.Gen.frame m ρ

/-- So does the kernel read on the extended reals. -/
theorem frame_kernelIdeal : Cert.frame_KernelIdeal (hKernelIdeal := Cert.KernelIdeal.Gen.facts) (hPre_finite_inputs := Cert.Pre_finite_inputs.Gen.facts) :=
  fun m ρ _ => Cert.KernelIdeal.Gen.frame m ρ

/-- The reference is a straight line of host operations: its run, with the result forgotten. -/
theorem frame_referenceIdeal : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2)
    (Cert.ReferenceIdeal.Value.run (F := Ideal) m ρ)

/-- Both programs end with the histogram of the argument arrays: the kernel's blocks assemble it, and the reference's
    scatter-add collapses to it because every similarity lies in [-1, 1]. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  refine ⟨_, Cert.Hist.Kern.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v32_eq, (hagree c).1, (hagree c).2.1, (hagree c).2.2]
  exact Cert.Hist.Ref.reference_eq _ _ _ (fun i => Cert.Hist.sim_range _ _ _ (hpre c) i)

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
